-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S512x512 : Shape := ⟨2, ![512, 512]⟩
abbrev S512 : Shape := ⟨1, ![512]⟩
abbrev S100000x512 : Shape := ⟨2, ![100000, 512]⟩
abbrev S512x1 : Shape := ⟨2, ![512, 1]⟩
abbrev S_ : Shape := ⟨0, ![]⟩
abbrev S512x100000 : Shape := ⟨2, ![512, 100000]⟩
abbrev S2048x512 : Shape := ⟨2, ![2048, 512]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 16
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x1, .i32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S512x100000, .f32⟩
  | .local _ .vmem, ⟨0, _⟩ => ⟨S512x1, .i32⟩
  | .local _ .vmem, ⟨1, _⟩ => ⟨S512x512, .bf16⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S512x1 : S512.ShapeCasts S512x1
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x512_S1024x512_0_0 : ∀ a, (![0, 0] : Fin 2 → Nat) a + S1024x512.size a ≤ S2048x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  iota_S1x1024_d1_w32 : S1x1024.Iotas .tc 32 [1]
  broadcasts_S512x1_S512x1024 : S512x1.Broadcasts S512x1024
  broadcasts_S1x1024_S512x1024 : S1x1024.Broadcasts S512x1024
  inb_S512x2048_S512x1024_0_0 : ∀ a, (![0, 0] : Fin 2 → Nat) a + S512x1024.size a ≤ S512x2048.size a
  h_S512x1024 : 0 < S512x1024.numel
  inb_S2048x512_S1024x512_1024_0 : ∀ a, (![1024, 0] : Fin 2 → Nat) a + S1024x512.size a ≤ S2048x512.size a
  inb_S512x2048_S512x1024_0_1024 : ∀ a, (![0, 1024] : Fin 2 → Nat) a + S512x1024.size a ≤ S512x2048.size a
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S512x1.size a
  hwx0_0 : ∀ i : grid0.Coords, EltTy.bits .i32 = 32 ∨ (Rect.block (s := S512x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x512.size a < S100000x512.size a
  hwx0_2 : ∀ i : grid0.Coords, EltTy.bits .f32 = 32 ∨ (Rect.unit (s := S100000x512) (fun a => cc0_transform_2 i a * S2048x512.size a) (fun a => (Pipeline.Clip.of (cc0_transform_2 i a) (S2048x512.size a) (S100000x512.size a)).extent (S2048x512.size a)) fun a => Pipeline.Clip.inb (Pipeline.Clip.ok_of (hstart0_2 i a))).WholeWords (EltTy.packing .f32)
  hwxs0_2 : ∀ i : grid0.Coords, EltTy.bits .f32 = 32 ∨ (Rect.unit (s := S2048x512) (fun _ => 0) (fun a => (Pipeline.Clip.of (cc0_transform_2 i a) (S2048x512.size a) (S100000x512.size a)).extent (S2048x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2048.size a < S512x100000.size a
  hwx0_3 : ∀ i : grid0.Coords, EltTy.bits .f32 = 32 ∨ (Rect.unit (s := S512x100000) (fun a => cc0_transform_3 i a * S512x2048.size a) (fun a => (Pipeline.Clip.of (cc0_transform_3 i a) (S512x2048.size a) (S512x100000.size a)).extent (S512x2048.size a)) fun a => Pipeline.Clip.inb (Pipeline.Clip.ok_of (hstart0_3 i a))).WholeWords (EltTy.packing .f32)
  hwxs0_3 : ∀ i : grid0.Coords, EltTy.bits .f32 = 32 ∨ (Rect.unit (s := S512x2048) (fun _ => 0) (fun a => (Pipeline.Clip.of (cc0_transform_3 i a) (S512x2048.size a) (S512x100000.size a)).extent (S512x2048.size a)) fun a => (Nat.zero_add _).trans_le (Pipeline.Clip.extent_le (Pipeline.Clip.ok_of (hstart0_3 i a)))).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S2048x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v10) S512x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩

abbrev nBuf : Space → Nat
  | .hbm => 70
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512x100000, .f32⟩
  | .hbm, ⟨29, _⟩ => ⟨S512x100000, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S512x100000, .f32⟩
  | .hbm, ⟨34, _⟩ => ⟨S_, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x100000, .f32⟩
  | .hbm, ⟨41, _⟩ => ⟨S512x100000, .f32⟩
  | .hbm, ⟨42, _⟩ => ⟨S_, .f32⟩
  | .hbm, ⟨43, _⟩ => ⟨S512x100000, .f32⟩
  | .hbm, ⟨44, _⟩ => ⟨S512x100000, .f32⟩
  | .hbm, ⟨45, _⟩ => ⟨S512x100000, .f32⟩
  | .hbm, ⟨46, _⟩ => ⟨S_, .f32⟩
  | .hbm, ⟨47, _⟩ => ⟨S512x100000, .f32⟩
  | .hbm, ⟨48, _⟩ => ⟨S512x100000, .f32⟩
  | .hbm, ⟨49, _⟩ => ⟨S_, .f32⟩
  | .hbm, ⟨50, _⟩ => ⟨S512x100000, .f32⟩
  | .hbm, ⟨51, _⟩ => ⟨S512x100000, .f32⟩
  | .hbm, ⟨52, _⟩ => ⟨S512x100000, .f32⟩
  | .hbm, ⟨53, _⟩ => ⟨S_, .f32⟩
  | .hbm, ⟨54, _⟩ => ⟨S512x100000, .f32⟩
  | .hbm, ⟨55, _⟩ => ⟨S512x100000, .i1⟩
  | .hbm, ⟨56, _⟩ => ⟨S_, .f32⟩
  | .hbm, ⟨57, _⟩ => ⟨S512x100000, .f32⟩
  | .hbm, ⟨58, _⟩ => ⟨S512x100000, .f32⟩
  | .hbm, ⟨59, _⟩ => ⟨S512x100000, .f32⟩
  | .hbm, ⟨60, _⟩ => ⟨S512x1, .i32⟩
  | .hbm, ⟨61, _⟩ => ⟨S100000, .i32⟩
  | .hbm, ⟨62, _⟩ => ⟨S1x100000, .i32⟩
  | .hbm, ⟨63, _⟩ => ⟨S512x100000, .i32⟩
  | .hbm, ⟨64, _⟩ => ⟨S512x100000, .i32⟩
  | .hbm, ⟨65, _⟩ => ⟨S512x100000, .i1⟩
  | .hbm, ⟨66, _⟩ => ⟨S512x100000, .f32⟩
  | .hbm, ⟨67, _⟩ => ⟨S_, .f32⟩
  | .hbm, ⟨68, _⟩ => ⟨S512x100000, .f32⟩
  | .hbm, ⟨69, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v22 : Ref sig .tc := ⟨.hbm, 44, rfl⟩
abbrev main_v23 : Ref sig .tc := ⟨.hbm, 45, rfl⟩
abbrev main_cst_8 : Ref sig .tc := ⟨.hbm, 46, rfl⟩
abbrev main_v24 : Ref sig .tc := ⟨.hbm, 47, rfl⟩
abbrev main_v25 : Ref sig .tc := ⟨.hbm, 48, rfl⟩
abbrev main_cst_9 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_10 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S100000_S1x100000_1 : S100000.BroadcastsInDim S1x100000 (![1] : Fin 1 → Fin S1x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.KBodyBits.lean ====
/-
  The kernel body at one grid point, and the data of the pipeline's run.

  At grid point t the body reads the label column (512 × 1), the normalised input (512 × 512) and the point's block of
  2048 weight rows, and writes a 512 × 2048 tile of the result: columns 0‥1023 from the block's rows 0‥1023, columns
  1024‥2047 from rows 1024‥2047. The last block overhangs the weight array (100000 = 48·2048 + 1696): its rows past
  the array's end hold arbitrary words, the columns computed from them lie past the result's last column, and the
  write-back of the tile is cut there. So what a staging buffer holds is stated only on the part its transfers move.
-/
import proofs.«175011_j1133871366196_2_alg».proof.Proof.Gen.Kernel.Frame
import proofs.«175011_j1133871366196_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The label column, whole. -/
abbrev rL : Rect S512x1 := Rect.unit (s := S512x1) ![0, 0] S512x1.size inb_S512x1_S512x1_0_0
/-- The normalised input, whole. -/
abbrev rX : Rect S512x512 := Rect.unit (s := S512x512) ![0, 0] S512x512.size inb_S512x512_S512x512_0_0
/-- Rows 0‥1023 of the weight block. -/
abbrev rWa : Rect S2048x512 := Rect.unit (s := S2048x512) ![0, 0] S1024x512.size inb_S2048x512_S1024x512_0_0
/-- Rows 1024‥2047 of the weight block. -/
abbrev rWb : Rect S2048x512 := Rect.unit (s := S2048x512) ![1024, 0] S1024x512.size inb_S2048x512_S1024x512_1024_0
/-- Columns 0‥1023 of the result tile. -/
abbrev rOa : Rect S512x2048 := Rect.unit (s := S512x2048) ![0, 0] S512x1024.size inb_S512x2048_S512x1024_0_0
/-- Columns 1024‥2047 of the result tile. -/
abbrev rOb : Rect S512x2048 := Rect.unit (s := S512x2048) ![0, 1024] S512x1024.size inb_S512x2048_S512x1024_0_1024

/-! ## What the body leaves in the result tile -/

/-- The first half-tile: the margin map of the cosines of the input rows with weight rows 0‥1023 of the block, the
    label compared with the columns' numbers 2048·t + q. -/
def tileA (i : grid0.Coords) (x0 : Vec F S512x1 .i32) (x1 : Vec F S512x512 .bf16) (x2 : Vec F S2048x512 .f32) : Vec F S512x1024 .f32 :=
  k0_pay6 (k0_pay3 (View.ld x0 rL)) (k0_pay4 (View.ld x1 rX) (View.ld x2 rWa)) (k0_pay5 (View.ld x1 rX) (View.ld x2 rWa))
    (Scalar.addi (Scalar.muli (BitVec.ofNat 32 (i 0).val) 2048#32) 0#32)

/-- The second half-tile: the same of weight rows 1024‥2047, the columns' numbers 2048·t + 1024 + q. -/
def tileB (i : grid0.Coords) (x0 : Vec F S512x1 .i32) (x1 : Vec F S512x512 .bf16) (x2 : Vec F S2048x512 .f32) : Vec F S512x1024 .f32 :=
  k0_pay1 (BitVec.ofNat 32 (i 0).val) (k0_pay3 (View.ld x0 rL)) (k0_pay7 (k0_pay2 (View.ld x1 rX)) (View.ld x2 rWb))
    (k0_pay8 (k0_pay2 (View.ld x1 rX)) (View.ld x2 rWb)) (k0_pay9 (k0_pay2 (View.ld x1 rX)) (View.ld x2 rWb))
    (k0_pay10 (k0_pay2 (View.ld x1 rX)) (View.ld x2 rWb))

/-- The result tile after the body: its two stores as pieces, the later one first. -/
def tile (i : grid0.Coords) (x0 : Vec F S512x1 .i32) (x1 : Vec F S512x512 .bf16) (x2 : Vec F S2048x512 .f32) : Vec F S512x2048 .f32 :=
  View.canon [⟨rOb, tileB i x0 x1 x2⟩, ⟨rOa, tileA i x0 x1 x2⟩]

/-- The two half-tiles tile the buffer, so they cover it. -/
theorem tile_cover (p1 p0 : Vec F S512x1024 .f32) (y : S512x2048.Idx) :
    ∃ pc ∈ ([⟨rOb, p1⟩, ⟨rOa, p0⟩] : List (View.Piece (Elt F) S512x2048 .f32)), y ∈ pc.1.set :=
  View.cover_of_tiled [⟨rOb, p1⟩, ⟨rOa, p0⟩] S512x1024.size (by rfl) y

/-! ## The body's triple -/

set_option maxHeartbeats 2000000 in
/-- The body on whole staging memrefs — the three inputs' at contents `x0`, `x1`, `x2`, the result's at anything —
    runs to the continuation with the inputs' as they were and the result's at `tile` of them. -/
theorem sound_kernel (c : Dev nD) (E : Set ℕ) (i : grid0.Coords)
    (arg1 : Memref sig .tc .vmem S512x1 .i32) (harg1 : arg1.IsWhole) (arg2 : Memref sig .tc .vmem S512x512 .bf16) (harg2 : arg2.IsWhole)
    (arg3 : Memref sig .tc .vmem S2048x512 .f32) (harg3 : arg3.IsWhole) (arg4 : Memref sig .tc .vmem S512x2048 .f32) (harg4 : arg4.IsWhole)
    (x0 : Vec F S512x1 .i32) (x1 : Vec F S512x512 .bf16) (x2 : Vec F S2048x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (tile_cover _ _)

/-! ## The pipeline's proof data -/

/-- The point's weight block as a whole 2048 × 512 block: the array's rows on the part the fetch moves, the zero word
    on the rows past the array's end (at the last point). -/
def wblk (c : Dev nD) (t : Fin cfg0.N) : Vec F S2048x512 .f32 :=
  (cfg0.win 2).fill (cfg0.grid.coords t) (fun _ => Scalar.ofBits .f32 0#32) (iblk m c 2 t)

/-- The data of the one pipeline on core `c`: the arrays as the region finds them; after the body at point `t` the
    label column's, the input's and the weight block's buffers at their blocks and the result's at `tile` of them;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => tile (cfg0.grid.coords t) (iblk m c 0 t) (iblk m c 1 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) :
    (dats m 0 c).after 3 t = tile (cfg0.grid.coords t) (iblk m c 0 t) (iblk m c 1 t) (wblk m c t) := by dsimp only [dats]

/-- The label column's and the input's buffers hold their (one) block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The weight block's buffer is fetched at every point: it holds the array's rows on the part the fetch moves and
    whatever it held, `d`, past the array's end. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]

/-! ## The body obligation -/

/-- The result tile's window, forgotten: for the claims that do not read the result. -/
def forgetsOut : Fin 4 → Bool := fun w => w.val == 3

/-- The body at any point, the result tile handed over and taken back at contents nothing names. -/
theorem sound_body_forget (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ (∃ d, owns (c : Thread nD τ) (st0_2 t) fullShare
            ((cfg0.win 2).fill (cfg0.grid.coords t) d ((cfg0.win 2).cut (cfg0.grid.coords t) ((dats m 0 c).after 2 t))))
        ∗ (∃ X, owns (c : Thread nD τ) (st0_3 t) fullShare X))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (cfg0.grid.coords t) (wblk m c t) = iblk m c 2 t from (cfg0.win 2).cut_fill _ _ _]
    iexact H2
  · iexists _; iexact H3

theorem body_obligation_forget (c : Dev nD) :
    BodyObligationLoose (dats (F := F) m 0 c) (defs₀ (F := F)) Variants.none () Set.univ forgetsOut := fun t => by
  rw [bigSep_W0, bigSep_W0]
  exact sound_body_forget m c t

/-- The part of the result tile that is written back does not depend on what the weight block's buffer holds past
    the array's end: a column of the tile is computed from its own weight row alone. Proved where the instance
    lets a tile's entry be read (the extended reals); the exact run below takes it as a hypothesis. -/
def TileCutIndep : Prop :=
  ∀ (t : Fin cfg0.N) (x0 : Vec F S512x1 .i32) (x1 : Vec F S512x512 .bf16)
    (g : ((cfg0.win 2).xblock (cfg0.grid.coords t)).Idx → Elt F .f32) (d d' : Vec F S2048x512 .f32),
    (cfg0.win 3).cut (cfg0.grid.coords t) (tile (cfg0.grid.coords t) x0 x1 ((cfg0.win 2).fill (cfg0.grid.coords t) d g))
      = (cfg0.win 3).cut (cfg0.grid.coords t) (tile (cfg0.grid.coords t) x0 x1 ((cfg0.win 2).fill (cfg0.grid.coords t) d' g))

/-- The body at any point, the result tile stated on the part that is written back. -/
theorem sound_body_exact (hI : TileCutIndep (F := F)) (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ (∃ d, owns (c : Thread nD τ) (st0_2 t) fullShare
            ((cfg0.win 2).fill (cfg0.grid.coords t) d ((cfg0.win 2).cut (cfg0.grid.coords t) ((dats m 0 c).after 2 t))))
        ∗ (∃ d, owns (c : Thread nD τ) (st0_3 t) fullShare
            ((cfg0.win 3).fill (cfg0.grid.coords t) d ((cfg0.win 3).cut (cfg0.grid.coords t) ((dats m 0 c).after 3 t)))))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (cfg0.grid.coords t) (wblk m c t) = iblk m c 2 t from (cfg0.win 2).cut_fill _ _ _]
    iexact H2
  · iexists tile (cfg0.grid.coords t) (iblk m c 0 t) (iblk m c 1 t) ((cfg0.win 2).fill (cfg0.grid.coords t) d2 (iblk m c 2 t))
    have e := (cfg0.win 3).fill_congr_cut (cfg0.grid.coords t)
      (hI t (iblk m c 0 t) (iblk m c 1 t) (iblk m c 2 t) d2 (fun _ => Scalar.ofBits .f32 0#32))
    change _ ⊢ owns (c : Thread nD τ) (st0_3 t) fullShare ((cfg0.win 3).fill (cfg0.grid.coords t)
      (tile (cfg0.grid.coords t) (iblk m c 0 t) (iblk m c 1 t) ((cfg0.win 2).fill (cfg0.grid.coords t) d2 (iblk m c 2 t)))
      ((cfg0.win 3).cut (cfg0.grid.coords t) (tile (cfg0.grid.coords t) (iblk m c 0 t) (iblk m c 1 t)
        ((cfg0.win 2).fill (cfg0.grid.coords t) (fun _ => Scalar.ofBits .f32 0#32) (iblk m c 2 t)))))
    erw [e]

theorem body_obligation_exact (hI : TileCutIndep (F := F)) (c : Dev nD) :
    BodyObligationLoose (dats (F := F) m 0 c) (defs₀ (F := F)) Variants.none () Set.univ := fun t => by
  rw [bigSep_W0, bigSep_W0]
  exact sound_body_exact m hI c t

/-! ## The runs and the frame -/

set_option backward.isDefEq.respectTransparency.types false in
/-- Every weakly fair execution of @main terminates without a fault, every input array of the pipeline and every other
    unscoped buffer ending as the region found it; nothing is said of the result array. -/
theorem run_forget : θ_run defs (onTc (τ := τ) (main (F := F))) (s₀ m ρ)
    (Pipeline.RDat.FramePost (cfgs 0) (fun c => (dats m 0 c).toRForget forgetsOut) (V m)) :=
  Pipeline.RDat.θ_run_frame cfgs (0 : Fin 1) launch0 defs₀ Variants.none (fun c => (dats m 0 c).toRForget forgetsOut) m ρ main
    (hbody := fun c => (body_obligation_forget m c).toRForget)
    (hshare := fun c => ((dats m 0 c).toRForget forgetsOut).share_full fun _ => rfl)
    (howed := fun _ _ => rfl) (V := V m) (hmain := hmain m Variants.none) (hA := A_eq m) (hΦ := fun _ _ => rfl)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Eq.mp (congrFun (((dats m 0 c).toRForget forgetsOut).ArrAt_in 2 rfl _) _) ((h c).1 2)).trans
        ((A_eq m c 2).trans (V_main_arg2 m c))⟩) (run_forget m ρ)

set_option backward.isDefEq.respectTransparency.types false in
/-- The same run with the result array named: it ends at what the write-backs of the tiles leave. -/
theorem run_exact (hI : TileCutIndep (F := F)) : θ_run defs (onTc (τ := τ) (main (F := F))) (s₀ m ρ)
    (Pipeline.FramePost cfgs (dats m) 0 (V m)) :=
  Pipeline.θ_run_frame cfgs (dats m) (0 : Fin 1) launch0 defs₀ Variants.none m ρ main
    (hbody := fun c => body_obligation_exact m hI c) (hshare := fun c => (dats m 0 c).share_full fun _ => rfl)
    (howed := fun _ _ => rfl) (V := V m) (hmain := hmain m Variants.none) (hA := A_eq m) (hΦ := fun _ _ => rfl)

end Cert.Kernel.Body

end
-- ==== Proof.KBodyIdeal.lean ====
/-
  The kernel body at one grid point, and the data of the pipeline's run.

  At grid point t the body reads the label column (512 × 1), the normalised input (512 × 512) and the point's block of
  2048 weight rows, and writes a 512 × 2048 tile of the result: columns 0‥1023 from the block's rows 0‥1023, columns
  1024‥2047 from rows 1024‥2047. The last block overhangs the weight array (100000 = 48·2048 + 1696): its rows past
  the array's end hold arbitrary words, the columns computed from them lie past the result's last column, and the
  write-back of the tile is cut there. So what a staging buffer holds is stated only on the part its transfers move.
-/
import proofs.«175011_j1133871366196_2_alg».proof.Proof.Gen.KernelIdeal.Frame
import proofs.«175011_j1133871366196_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's accesses -/

/-- The label column, whole. -/
abbrev rL : Rect S512x1 := Rect.unit (s := S512x1) ![0, 0] S512x1.size inb_S512x1_S512x1_0_0
/-- The normalised input, whole. -/
abbrev rX : Rect S512x512 := Rect.unit (s := S512x512) ![0, 0] S512x512.size inb_S512x512_S512x512_0_0
/-- Rows 0‥1023 of the weight block. -/
abbrev rWa : Rect S2048x512 := Rect.unit (s := S2048x512) ![0, 0] S1024x512.size inb_S2048x512_S1024x512_0_0
/-- Rows 1024‥2047 of the weight block. -/
abbrev rWb : Rect S2048x512 := Rect.unit (s := S2048x512) ![1024, 0] S1024x512.size inb_S2048x512_S1024x512_1024_0
/-- Columns 0‥1023 of the result tile. -/
abbrev rOa : Rect S512x2048 := Rect.unit (s := S512x2048) ![0, 0] S512x1024.size inb_S512x2048_S512x1024_0_0
/-- Columns 1024‥2047 of the result tile. -/
abbrev rOb : Rect S512x2048 := Rect.unit (s := S512x2048) ![0, 1024] S512x1024.size inb_S512x2048_S512x1024_0_1024

/-! ## What the body leaves in the result tile -/

/-- The first half-tile: the margin map of the cosines of the input rows with weight rows 0‥1023 of the block, the
    label compared with the columns' numbers 2048·t + q. -/
def tileA (i : grid0.Coords) (x0 : Vec F S512x1 .i32) (x1 : Vec F S512x512 .bf16) (x2 : Vec F S2048x512 .f32) : Vec F S512x1024 .f32 :=
  k0_pay6 (k0_pay3 (View.ld x0 rL)) (k0_pay4 (View.ld x1 rX) (View.ld x2 rWa)) (k0_pay5 (View.ld x1 rX) (View.ld x2 rWa))
    (Scalar.addi (Scalar.muli (BitVec.ofNat 32 (i 0).val) 2048#32) 0#32)

/-- The second half-tile: the same of weight rows 1024‥2047, the columns' numbers 2048·t + 1024 + q. -/
def tileB (i : grid0.Coords) (x0 : Vec F S512x1 .i32) (x1 : Vec F S512x512 .bf16) (x2 : Vec F S2048x512 .f32) : Vec F S512x1024 .f32 :=
  k0_pay1 (BitVec.ofNat 32 (i 0).val) (k0_pay3 (View.ld x0 rL)) (k0_pay7 (k0_pay2 (View.ld x1 rX)) (View.ld x2 rWb))
    (k0_pay8 (k0_pay2 (View.ld x1 rX)) (View.ld x2 rWb)) (k0_pay9 (k0_pay2 (View.ld x1 rX)) (View.ld x2 rWb))
    (k0_pay10 (k0_pay2 (View.ld x1 rX)) (View.ld x2 rWb))

/-- The result tile after the body: its two stores as pieces, the later one first. -/
def tile (i : grid0.Coords) (x0 : Vec F S512x1 .i32) (x1 : Vec F S512x512 .bf16) (x2 : Vec F S2048x512 .f32) : Vec F S512x2048 .f32 :=
  View.canon [⟨rOb, tileB i x0 x1 x2⟩, ⟨rOa, tileA i x0 x1 x2⟩]

/-- The two half-tiles tile the buffer, so they cover it. -/
theorem tile_cover (p1 p0 : Vec F S512x1024 .f32) (y : S512x2048.Idx) :
    ∃ pc ∈ ([⟨rOb, p1⟩, ⟨rOa, p0⟩] : List (View.Piece (Elt F) S512x2048 .f32)), y ∈ pc.1.set :=
  View.cover_of_tiled [⟨rOb, p1⟩, ⟨rOa, p0⟩] S512x1024.size (by rfl) y

/-! ## The body's triple -/

set_option maxHeartbeats 2000000 in
/-- The body on whole staging memrefs — the three inputs' at contents `x0`, `x1`, `x2`, the result's at anything —
    runs to the continuation with the inputs' as they were and the result's at `tile` of them. -/
theorem sound_kernel (c : Dev nD) (E : Set ℕ) (i : grid0.Coords)
    (arg1 : Memref sig .tc .vmem S512x1 .i32) (harg1 : arg1.IsWhole) (arg2 : Memref sig .tc .vmem S512x512 .bf16) (harg2 : arg2.IsWhole)
    (arg3 : Memref sig .tc .vmem S2048x512 .f32) (harg3 : arg3.IsWhole) (arg4 : Memref sig .tc .vmem S512x2048 .f32) (harg4 : arg4.IsWhole)
    (x0 : Vec F S512x1 .i32) (x1 : Vec F S512x512 .bf16) (x2 : Vec F S2048x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (tile_cover _ _)

/-! ## The pipeline's proof data -/

/-- The point's weight block as a whole 2048 × 512 block: the array's rows on the part the fetch moves, the zero word
    on the rows past the array's end (at the last point). -/
def wblk (c : Dev nD) (t : Fin cfg0.N) : Vec F S2048x512 .f32 :=
  (cfg0.win 2).fill (cfg0.grid.coords t) (fun _ => Scalar.ofBits .f32 0#32) (iblk m c 2 t)

/-- The data of the one pipeline on core `c`: the arrays as the region finds them; after the body at point `t` the
    label column's, the input's and the weight block's buffers at their blocks and the result's at `tile` of them;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => tile (cfg0.grid.coords t) (iblk m c 0 t) (iblk m c 1 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) :
    (dats m 0 c).after 3 t = tile (cfg0.grid.coords t) (iblk m c 0 t) (iblk m c 1 t) (wblk m c t) := by dsimp only [dats]

/-- The label column's and the input's buffers hold their (one) block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The weight block's buffer is fetched at every point: it holds the array's rows on the part the fetch moves and
    whatever it held, `d`, past the array's end. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; unfold Dat.fetched Dat.blockOf iblk; rw [A_eq]

/-! ## The body obligation -/

/-- The result tile's window, forgotten: for the claims that do not read the result. -/
def forgetsOut : Fin 4 → Bool := fun w => w.val == 3

/-- The body at any point, the result tile handed over and taken back at contents nothing names. -/
theorem sound_body_forget (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ (∃ d, owns (c : Thread nD τ) (st0_2 t) fullShare
            ((cfg0.win 2).fill (cfg0.grid.coords t) d ((cfg0.win 2).cut (cfg0.grid.coords t) ((dats m 0 c).after 2 t))))
        ∗ (∃ X, owns (c : Thread nD τ) (st0_3 t) fullShare X))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (cfg0.grid.coords t) (wblk m c t) = iblk m c 2 t from (cfg0.win 2).cut_fill _ _ _]
    iexact H2
  · iexists _; iexact H3

theorem body_obligation_forget (c : Dev nD) :
    BodyObligationLoose (dats (F := F) m 0 c) (defs₀ (F := F)) Variants.none () Set.univ forgetsOut := fun t => by
  rw [bigSep_W0, bigSep_W0]
  exact sound_body_forget m c t

/-- The part of the result tile that is written back does not depend on what the weight block's buffer holds past
    the array's end: a column of the tile is computed from its own weight row alone. Proved where the instance
    lets a tile's entry be read (the extended reals); the exact run below takes it as a hypothesis. -/
def TileCutIndep : Prop :=
  ∀ (t : Fin cfg0.N) (x0 : Vec F S512x1 .i32) (x1 : Vec F S512x512 .bf16)
    (g : ((cfg0.win 2).xblock (cfg0.grid.coords t)).Idx → Elt F .f32) (d d' : Vec F S2048x512 .f32),
    (cfg0.win 3).cut (cfg0.grid.coords t) (tile (cfg0.grid.coords t) x0 x1 ((cfg0.win 2).fill (cfg0.grid.coords t) d g))
      = (cfg0.win 3).cut (cfg0.grid.coords t) (tile (cfg0.grid.coords t) x0 x1 ((cfg0.win 2).fill (cfg0.grid.coords t) d' g))

/-- The body at any point, the result tile stated on the part that is written back. -/
theorem sound_body_exact (hI : TileCutIndep (F := F)) (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ (∃ d, owns (c : Thread nD τ) (st0_2 t) fullShare
            ((cfg0.win 2).fill (cfg0.grid.coords t) d ((cfg0.win 2).cut (cfg0.grid.coords t) ((dats m 0 c).after 2 t))))
        ∗ (∃ d, owns (c : Thread nD τ) (st0_3 t) fullShare
            ((cfg0.win 3).fill (cfg0.grid.coords t) d ((cfg0.win 3).cut (cfg0.grid.coords t) ((dats m 0 c).after 3 t)))))) := by
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (cfg0.grid.coords t) (wblk m c t) = iblk m c 2 t from (cfg0.win 2).cut_fill _ _ _]
    iexact H2
  · iexists tile (cfg0.grid.coords t) (iblk m c 0 t) (iblk m c 1 t) ((cfg0.win 2).fill (cfg0.grid.coords t) d2 (iblk m c 2 t))
    have e := (cfg0.win 3).fill_congr_cut (cfg0.grid.coords t)
      (hI t (iblk m c 0 t) (iblk m c 1 t) (iblk m c 2 t) d2 (fun _ => Scalar.ofBits .f32 0#32))
    change _ ⊢ owns (c : Thread nD τ) (st0_3 t) fullShare ((cfg0.win 3).fill (cfg0.grid.coords t)
      (tile (cfg0.grid.coords t) (iblk m c 0 t) (iblk m c 1 t) ((cfg0.win 2).fill (cfg0.grid.coords t) d2 (iblk m c 2 t)))
      ((cfg0.win 3).cut (cfg0.grid.coords t) (tile (cfg0.grid.coords t) (iblk m c 0 t) (iblk m c 1 t)
        ((cfg0.win 2).fill (cfg0.grid.coords t) (fun _ => Scalar.ofBits .f32 0#32) (iblk m c 2 t)))))
    erw [e]

theorem body_obligation_exact (hI : TileCutIndep (F := F)) (c : Dev nD) :
    BodyObligationLoose (dats (F := F) m 0 c) (defs₀ (F := F)) Variants.none () Set.univ := fun t => by
  rw [bigSep_W0, bigSep_W0]
  exact sound_body_exact m hI c t

/-! ## The runs and the frame -/

set_option backward.isDefEq.respectTransparency.types false in
/-- Every weakly fair execution of @main terminates without a fault, every input array of the pipeline and every other
    unscoped buffer ending as the region found it; nothing is said of the result array. -/
theorem run_forget : θ_run defs (onTc (τ := τ) (main (F := F))) (s₀ m ρ)
    (Pipeline.RDat.FramePost (cfgs 0) (fun c => (dats m 0 c).toRForget forgetsOut) (V m)) :=
  Pipeline.RDat.θ_run_frame cfgs (0 : Fin 1) launch0 defs₀ Variants.none (fun c => (dats m 0 c).toRForget forgetsOut) m ρ main
    (hbody := fun c => (body_obligation_forget m c).toRForget)
    (hshare := fun c => ((dats m 0 c).toRForget forgetsOut).share_full fun _ => rfl)
    (howed := fun _ _ => rfl) (V := V m) (hmain := hmain m Variants.none) (hA := A_eq m) (hΦ := fun _ _ => rfl)

/-- The frame: the program runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Eq.mp (congrFun (((dats m 0 c).toRForget forgetsOut).ArrAt_in 2 rfl _) _) ((h c).1 2)).trans
        ((A_eq m c 2).trans (V_main_arg2 m c))⟩) (run_forget m ρ)

set_option backward.isDefEq.respectTransparency.types false in
/-- The same run with the result array named: it ends at what the write-backs of the tiles leave. -/
theorem run_exact (hI : TileCutIndep (F := F)) : θ_run defs (onTc (τ := τ) (main (F := F))) (s₀ m ρ)
    (Pipeline.FramePost cfgs (dats m) 0 (V m)) :=
  Pipeline.θ_run_frame cfgs (dats m) (0 : Fin 1) launch0 defs₀ Variants.none m ρ main
    (hbody := fun c => body_obligation_exact m hI c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.KTileRead.lean ====
/-
  A tile's entry is a half-tile's entry: columns 0‥1023 of the 512 × 2048 tile are the first half-tile, columns
  1024‥2047 the second; and what the body's loads read of the blocks, entry by entry: the label column and the input
  whole, rows 0‥1023 and rows 1024‥2047 of the weight block.
-/
import proofs.«175011_j1133871366196_2_alg».proof.Proof.KBodyIdeal
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx Idealize.ShloMosaic.Pipeline

variable {F : FTy → Type} [FloatOps F] [Named F]

theorem zz : (![0, 0] : Fin 2 → Nat) = fun _ => 0 := funext fun a => by match a with | ⟨0, _⟩ => rfl | ⟨1, _⟩ => rfl

/-- The label column is loaded whole. -/
theorem ld_rL (x0 : Vec F S512x1 .i32) : View.ld x0 rL = x0 := View.ld_unit_zero (S := S512x1) zz _ x0
/-- The input is loaded whole. -/
theorem ld_rX (x1 : Vec F S512x512 .bf16) : View.ld x1 rX = x1 := View.ld_unit_zero (S := S512x512) zz _ x1
/-- The first load of the weight block reads its rows 0‥1023. -/
theorem ld_rWa (x2 : Vec F S2048x512 .f32) (q : Fin 1024) (k : Fin 512) :
    View.ld x2 rWa (ix2 q k) = x2 (ix2 (⟨q.val, by omega⟩ : Fin 2048) k) := by
  show x2 (rWa.idx (ix2 q k)) = _
  refine congrArg x2 (funext fun a => Fin.ext ?_)
  match a with
  | ⟨0, _⟩ => show 0 + 1 * q.val = q.val; omega
  | ⟨1, _⟩ => show 0 + 1 * k.val = k.val; omega
/-- The second reads its rows 1024‥2047. -/
theorem ld_rWb (x2 : Vec F S2048x512 .f32) (q : Fin 1024) (k : Fin 512) :
    View.ld x2 rWb (ix2 q k) = x2 (ix2 (⟨1024 + q.val, by omega⟩ : Fin 2048) k) := by
  have hidx : ∀ (j : rWb.shape.Idx) (a : Fin 2), ((rWb.idx j) a : Nat) = (![1024, 0] : Fin 2 → Nat) a + (j a : Nat) := fun j a => by
    have h := Rect.emb_apply rWb j a
    simp only [Rect.off_unit, Rect.stride_unit, Nat.one_mul] at h
    exact h
  show x2 (rWb.idx (ix2 q k)) = _
  refine congrArg x2 (funext fun a => Fin.ext ?_)
  rw [hidx]
  match a with
  | ⟨0, _⟩ => rfl
  | ⟨1, _⟩ => show 0 + k.val = k.val; omega

/-- A unit-stride rectangle places its index at its offsets plus the index. -/
theorem emb_rOa (j : rOa.shape.Idx) (a : Fin 2) : ((rOa.emb j) a : Nat) = (![0, 0] : Fin 2 → Nat) a + (j a : Nat) := by
  have h := Rect.emb_apply rOa j a
  simp only [Rect.off_unit, Rect.stride_unit, Nat.one_mul] at h
  exact h
theorem emb_rOb (j : rOb.shape.Idx) (a : Fin 2) : ((rOb.emb j) a : Nat) = (![0, 1024] : Fin 2 → Nat) a + (j a : Nat) := by
  have h := Rect.emb_apply rOb j a
  simp only [Rect.off_unit, Rect.stride_unit, Nat.one_mul] at h
  exact h

/-- Column q < 1024 of the tile is column q of the first half-tile's rectangle; -/
theorem he_left (b : Fin 512) (q : Fin 1024) : (ix2 b (⟨q.val, by omega⟩ : Fin 2048) : S512x2048.Idx) = rOa.emb (ix2 b q) :=
  funext fun a => Fin.ext (by
    rw [emb_rOa]
    match a with
    | ⟨0, _⟩ => show b.val = 0 + b.val; omega
    | ⟨1, _⟩ => show q.val = 0 + q.val; omega)

/-- column 1024 + q is column q of the second's; -/
theorem he_right (b : Fin 512) (q : Fin 1024) : (ix2 b (⟨1024 + q.val, by omega⟩ : Fin 2048) : S512x2048.Idx) = rOb.emb (ix2 b q) :=
  funext fun a => Fin.ext (by
    rw [emb_rOb]
    match a with
    | ⟨0, _⟩ => show b.val = 0 + b.val; omega
    | ⟨1, _⟩ => rfl)

/-- and the first 1024 columns lie off the second rectangle. -/
theorem hn_left (b : Fin 512) (q : Fin 1024) : (ix2 b (⟨q.val, by omega⟩ : Fin 2048) : S512x2048.Idx) ∉ rOb.set := by
  rw [Rect.mem_set_unit]; intro h
  have h1 := (h (⟨1, Nat.one_lt_two⟩ : Fin 2)).1
  have h2 : (![0, 1024] : Fin 2 → Nat) (⟨1, Nat.one_lt_two⟩ : Fin 2) = 1024 := rfl
  have h3 : ((ix2 b (⟨q.val, by omega⟩ : Fin 2048) : S512x2048.Idx) (⟨1, Nat.one_lt_two⟩ : Fin 2) : Nat) = q.val := rfl
  omega

/-- Columns 0‥1023 of the tile are the first half-tile. -/
theorem tile_left (i : grid0.Coords) (x0 : Vec F S512x1 .i32) (x1 : Vec F S512x512 .bf16) (x2 : Vec F S2048x512 .f32)
    (b : Fin 512) (q : Fin 1024) :
    tile i x0 x1 x2 (ix2 b (⟨q.val, by omega⟩ : Fin 2048)) = tileA i x0 x1 x2 (ix2 b q) := by
  unfold tile
  rw [View.canon_cons_of_not_mem (⟨rOb, tileB i x0 x1 x2⟩ : View.Piece (Elt F) S512x2048 .f32) [⟨rOa, tileA i x0 x1 x2⟩] (hn_left b q), he_left,
    View.canon_cons_emb rOa (tileA i x0 x1 x2) [] (ix2 b q)]

/-- Columns 1024‥2047 are the second. -/
theorem tile_right (i : grid0.Coords) (x0 : Vec F S512x1 .i32) (x1 : Vec F S512x512 .bf16) (x2 : Vec F S2048x512 .f32)
    (b : Fin 512) (q : Fin 1024) :
    tile i x0 x1 x2 (ix2 b (⟨1024 + q.val, by omega⟩ : Fin 2048)) = tileB i x0 x1 x2 (ix2 b q) := by
  unfold tile
  rw [he_right, View.canon_cons_emb rOb (tileB i x0 x1 x2) [⟨rOa, tileA i x0 x1 x2⟩] (ix2 b q)]
end Cert.KernelIdeal.Body

end
-- ==== Proof.Spec.lean ====
/-
  The function both programs compute, entry by entry, on the extended reals.

  For a row-normalised input `xn` (512 × 512), labels `lbl` (512) and a weight matrix `w` (100000 × 512), entry
  (b, j) of the result is the margin map applied to the cosine

      cos(b, j) = ∑ d, xn(b, d) · ŵ(j, d),

  where ŵ(j, ·) is row j of `w` divided by max(‖w(j, ·)‖, ε), and to the bit "j is row b's label". The margin map
  clips the cosine to [-1, 1], forms sin = sqrt(clip(1 − cos², 1e-9, 1)), φ = cos·cos m − sin·sin m, replaces φ by
  cos − mm where cos ≤ th, takes φ at the label's column and cos elsewhere, and scales by 30.

  The row normalisation is written in two arrangements: `rowDiv` (divide by max(sqrt ss, ε)) and `rowRsqrt`
  (multiply by rsqrt(max(ss, ε²))), ss the row's sum of squares; they agree on rows of real numbers when ε² is the
  square of ε.
-/
import Idealize.ShloMosaic.PureOps.Ideal
import Idealize.ShloMosaic.Lib.ValueIdx

noncomputable section

namespace Cert.Arc

open Idealize.ShloMosaic Idealize.ShloMosaic.ValueIdx

abbrev SX : Shape := ⟨2, ![512, 512]⟩
abbrev SL : Shape := ⟨1, ![512]⟩
abbrev SW : Shape := ⟨2, ![100000, 512]⟩
abbrev SO : Shape := ⟨2, ![512, 100000]⟩

/-- An f32 word read as the extended real it encodes. -/
abbrev lit (w : BitVec 32) : EReal := FloatOps.ofBits (F := Ideal) .f32 w

/-- The margin map on a raw cosine `c0`; `hot` is 1 at the label's column. -/
def margin (c0 : EReal) (hot : BitVec 1) : EReal :=
  let c : EReal := FloatOps.minimumf (F := Ideal) (φ := .f32) (lit 0x3F800000#32) (FloatOps.maximumf (F := Ideal) (φ := .f32) (lit 0xBF800000#32) c0)
  let u : EReal := FloatOps.minimumf (F := Ideal) (φ := .f32) (lit 0x3F800000#32)
    (FloatOps.maximumf (F := Ideal) (φ := .f32) (lit 0x3089705F#32) (FloatOps.subf (F := Ideal) (φ := .f32) (lit 0x3F800000#32) (FloatOps.mulf (F := Ideal) (φ := .f32) c c)))
  let s : EReal := FloatOps.hostUnary (F := Ideal) (φ := .f32) .sqrt u
  let phi : EReal := FloatOps.subf (F := Ideal) (φ := .f32) (FloatOps.mulf (F := Ideal) (φ := .f32) c (lit 0x3F60A940#32)) (FloatOps.mulf (F := Ideal) (φ := .f32) s (lit 0x3EF57744#32))
  let phi' : EReal := Scalar.select (FloatOps.cmpf (F := Ideal) (φ := .f32) .ogt c (lit 0xBF60A940#32)) phi (FloatOps.subf (F := Ideal) (φ := .f32) c (lit 0x3E757744#32))
  FloatOps.mulf (F := Ideal) (φ := .f32) (Scalar.select hot phi' c) (lit 0x41F00000#32)

/-- A row's sum of squares. -/
def sumSq (r : Fin 512 → EReal) : EReal := ∑ k : Fin 512, FloatOps.mulf (F := Ideal) (φ := .f32) (r k) (r k)

/-- Entry `d` of a row divided by max(sqrt(sum of squares), ε), ε the f32 word 0x2B8CBCCC. -/
def rowDiv (r : Fin 512 → EReal) (d : Fin 512) : EReal :=
  FloatOps.hostDivf (F := Ideal) (φ := .f32) (r d) (FloatOps.maximumf (F := Ideal) (φ := .f32) (FloatOps.hostUnary (F := Ideal) (φ := .f32) .sqrt (sumSq r)) (lit 0x2B8CBCCC#32))

/-- Entry `d` of a row times rsqrt(max(sum of squares, e2)). -/
def rowRsqrt (e2 : EReal) (r : Fin 512 → EReal) (d : Fin 512) : EReal :=
  FloatOps.mulf (F := Ideal) (φ := .f32) (r d) (FloatOps.rsqrt (F := Ideal) (φ := .f32) (FloatOps.maximumf (F := Ideal) (φ := .f32) (sumSq r) e2))

/-- ε², ε the rational the f32 word 0x2B8CBCCC encodes (2305843 / 2^61). -/
abbrev epsSq : EReal := ((5316911940649 / 5316911983139663491615228241121378304 : ℝ) : EReal)

/-- Row `j` of a 100000 × 512 array. -/
def wrow (w : SW.Idx → EReal) (j : Fin 100000) : Fin 512 → EReal := fun k => w (ix2 j k)

/-- The result, entry by entry, in the dividing arrangement. -/
def G (xn : SX.Idx → EReal) (lbl : SL.Idx → BitVec 32) (w : SW.Idx → EReal) : SO.Idx → EReal := fun i =>
  margin (∑ d : Fin 512, xn (ix2 (⟨(i 0).val, (i 0).isLt⟩ : Fin 512) d) * rowDiv (wrow w ⟨(i 1).val, (i 1).isLt⟩) d)
    (IntOp.cmpi .eq (lbl (ix1 (⟨(i 0).val, (i 0).isLt⟩ : Fin 512))) (BitVec.ofNat 32 (i 1).val))

end Cert.Arc

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.PayloadRead.lean ====
/-
  One block of the kernel's body read entry by entry, on the extended reals.

  The body handles 2048 weight rows as two halves of 1024. For a half `w` (1024 × 512) it normalises each row
  — row q times rsqrt(max(sum of squares of row q, ε²)) —, contracts the normalised input `xb` (512 × 512) with the
  normalised half over the shared second axis, clips the product to [-1, 1], and applies the margin map with the
  bit "row b's label is this column", the column being the block's first column plus the entry's own.

  Read at (b, q), each half's stored tile is therefore

      margin (∑ d, xb(b, d) · rowRsqrt ε² (w(q, ·)) d) (label(b) = first column + q),

  which is what `tileA_apply` and `tileB_apply` say. The steps: a row's sum of squares is the one-axis reduction
  read as a finite sum (`sumsq_apply`); the keep-dimension column and its broadcast back read the column's entry
  of the row (`wn_apply`); the contraction from the zero accumulator is the inner product of two rows
  (`pay4_apply`); everything after it is pointwise and unfolds to the margin map (`margin_eq`, `pay5_apply`,
  `pay6_apply`, `pay1_apply`); the compared column word is the scalar offset plus the iota's coordinate
  (`hot_apply`), and at grid coordinate t it is the word of 2048 t + q, resp. 2048 t + 1024 + q (`col_wordA`,
  `col_wordB`: 32-bit words add and multiply as the naturals do, modulo 2^32).
-/
import proofs.«175011_j1133871366196_2_alg».proof.Proof.Spec
import proofs.«175011_j1133871366196_2_alg».proof.Proof.Gen.KernelIdeal.Skeleton
import proofs.«175011_j1133871366196_2_alg».proof.Proof.LibColumnLayout
import proofs.«175011_j1133871366196_2_alg».proof.Proof.LibMatmulRowsRead

noncomputable section

namespace Cert.Arc.Pay

open Idealize.ShloMosaic Idealize.ShloMosaic.ValueIdx Idealize.SL.Sem Cert.KernelIdeal Cert.KernelIdeal.Gen

theorem eps_sq : Named.named (F := Ideal) Cert.KernelIdeal.κ "eps_sq" (φ := .f32) 0x179ABE15#32 = Cert.Arc.epsSq :=
  IdealRules.named_const.ideal_named_scalar _ _ _ _ rfl

/-- The normalised weight half. -/
def wn (w : Vec Ideal S1024x512 .f32) : FVec Ideal S1024x512 .f32 :=
  mulf w (broadcastTo S1024x512 (rsqrt (maximumf (shapeCast S1024x1 (multiReduction (F := Ideal) .add [1] S1024 (mulf w w) 0x00000000#32 reduces_S1024x512_S1024 (.inl rfl) rfl) shapeCasts_S1024_S1024x1) (broadcast S1024x1 (Named.named (F := Ideal) κ "eps_sq" (φ := .f32) 0x179ABE15#32)))) broadcasts_S1024x1_S1024x512)

theorem lift_row (q : Fin 1024) (k : Fin 512) :
    reduces_S1024x512_S1024.lift (ix1 q) k = ix2 q k := by
  funext c
  match c with
  | ⟨0, _⟩ => rfl
  | ⟨1, _⟩ => rfl

theorem sumsq_apply (w : Vec Ideal S1024x512 .f32) (q : Fin 1024) :
    multiReduction (F := Ideal) .add [1] S1024 (mulf w w) 0x00000000#32 reduces_S1024x512_S1024 (.inl rfl) rfl (ix1 q)
      = Cert.Arc.sumSq (fun k => w (ix2 q k)) :=
  (Ideal.multiReduction_add_single (mulf w w) _ reduces_S1024x512_S1024 _ _ (ix1 q)).trans
    (Finset.sum_congr rfl fun k _ => congrArg (fun i => w i * w i) (lift_row q k))

theorem wn_apply (w : Vec Ideal S1024x512 .f32) (q : Fin 1024) (d : Fin 512) :
    wn w (ix2 q d) = Cert.Arc.rowRsqrt Cert.Arc.epsSq (fun k => w (ix2 q k)) d := by
  unfold wn rowRsqrt
  rw [mulf_apply, broadcastTo_a1_ab_apply]
  show w (ix2 q d) * FloatOps.rsqrt (F := Ideal) (φ := .f32) (max (shapeCast S1024x1 (multiReduction (F := Ideal) .add [1] S1024 (mulf w w) 0x00000000#32 reduces_S1024x512_S1024 (.inl rfl) rfl) shapeCasts_S1024_S1024x1 (ix2 q 0)) (Named.named (F := Ideal) κ "eps_sq" (φ := .f32) 0x179ABE15#32)) = w (ix2 q d) * FloatOps.rsqrt (F := Ideal) (φ := .f32) (max (sumSq (fun k => w (ix2 q k))) epsSq)
  rw [shapeCast_a_a1_apply, eps_sq, sumsq_apply]

theorem pay4_eq (xb : Vec Ideal S512x512 .bf16) (w : Vec Ideal S1024x512 .f32) :
    k0_pay4 (F := Ideal) xb w = minimumf (broadcast S512x1024 (Scalar.ofBits (F := Ideal) .f32 0x3F800000#32))
      (maximumf (broadcast S512x1024 (Scalar.ofBits (F := Ideal) .f32 0xBF800000#32))
        (matmul (φ₁ := .bf16) dot_S512x512_S1024x512_S512x1024_1_1_0_0_n_n none xb (truncf .bf16 (wn w) bitsLt_bf16_f32) (constant (F := Ideal) S512x1024 .f32 0x00000000#32))) := by
  unfold k0_pay4 k0_pay2 wn
  rw [shapeCast_self]

/-- The cosine of input row `b` against weight row `q` of the half. -/
def cosv (xb : Vec Ideal S512x512 .bf16) (w : Vec Ideal S1024x512 .f32) (b : Fin 512) (q : Fin 1024) : EReal :=
  ∑ d : Fin 512, xb (ix2 b d) * Cert.Arc.rowRsqrt Cert.Arc.epsSq (fun k => w (ix2 q k)) d

/-- The clip to [-1, 1]. -/
def clip (c0 : EReal) : EReal :=
  FloatOps.minimumf (F := Ideal) (φ := .f32) (lit 0x3F800000#32) (FloatOps.maximumf (F := Ideal) (φ := .f32) (lit 0xBF800000#32) c0)

theorem pay4_apply (xb : Vec Ideal S512x512 .bf16) (w : Vec Ideal S1024x512 .f32) (b : Fin 512) (q : Fin 1024) :
    k0_pay4 (F := Ideal) xb w (ix2 b q) = clip (cosv xb w b q) := by
  rw [pay4_eq]
  refine congrArg clip ?_
  refine (matmul_rows_ix2_apply (φ₁ := .bf16) (φ₂ := .bf16) dot_S512x512_S1024x512_S512x1024_1_1_0_0_n_n rfl rfl rfl rfl rfl rfl none xb _ b q).trans ?_
  exact Finset.sum_congr rfl fun d _ => congrArg (fun z => xb (ix2 b d) * z) (wn_apply w q d)

/-- The margin map after the clip: `c` is the clipped cosine. -/
def phiSel (c : EReal) : EReal :=
  let u : EReal := FloatOps.minimumf (F := Ideal) (φ := .f32) (lit 0x3F800000#32)
    (FloatOps.maximumf (F := Ideal) (φ := .f32) (lit 0x3089705F#32) (FloatOps.subf (F := Ideal) (φ := .f32) (lit 0x3F800000#32) (FloatOps.mulf (F := Ideal) (φ := .f32) c c)))
  let s : EReal := FloatOps.hostUnary (F := Ideal) (φ := .f32) .sqrt u
  let phi : EReal := FloatOps.subf (F := Ideal) (φ := .f32) (FloatOps.mulf (F := Ideal) (φ := .f32) c (lit 0x3F60A940#32)) (FloatOps.mulf (F := Ideal) (φ := .f32) s (lit 0x3EF57744#32))
  Scalar.select (FloatOps.cmpf (F := Ideal) (φ := .f32) .ogt c (lit 0xBF60A940#32)) phi (FloatOps.subf (F := Ideal) (φ := .f32) c (lit 0x3E757744#32))

theorem margin_eq (c0 : EReal) (hot : BitVec 1) :
    Cert.Arc.margin c0 hot = FloatOps.mulf (F := Ideal) (φ := .f32) (Scalar.select hot (phiSel (clip c0)) (clip c0)) (lit 0x41F00000#32) := rfl

theorem pay5_apply (xb : Vec Ideal S512x512 .bf16) (w : Vec Ideal S1024x512 .f32) (i : S512x1024.Idx) :
    k0_pay5 (F := Ideal) xb w i = phiSel (k0_pay4 (F := Ideal) xb w i) := rfl

theorem row_bcast_apply {α : Type} (v : S1x1024.Idx → α) (p : Fin 512) (c : Fin 1024) :
    broadcastTo S512x1024 v broadcasts_S1x1024_S512x1024 (ix2 p c) = v (ix2 (0 : Fin 1) c) := by
  refine broadcastTo_apply v _ (ix2 p c) (ix2 (0 : Fin 1) c) fun ax => ?_
  match ax with
  | ⟨0, _⟩ => rfl
  | ⟨1, _⟩ => rfl

theorem hot_apply (l : IVec S512x1 32) (v38 : BitVec 32) (b : Fin 512) (q : Fin 1024) :
    cmpi .eq (broadcastTo S512x1024 l broadcasts_S512x1_S512x1024)
        (broadcastTo S512x1024 (addi (broadcast S1x1024 v38) (iota .tc S1x1024 32 [1] iota_S1x1024_d1_w32)) broadcasts_S1x1024_S512x1024) (ix2 b q)
      = IntOp.cmpi .eq (l (ix2 b 0)) (v38 + BitVec.ofNat 32 q.val) := by
  show IntOp.cmpi .eq (broadcastTo S512x1024 l broadcasts_S512x1_S512x1024 (ix2 b q))
        (broadcastTo S512x1024 (addi (broadcast S1x1024 v38) (iota .tc S1x1024 32 [1] iota_S1x1024_d1_w32)) broadcasts_S1x1024_S512x1024 (ix2 b q)) = _
  rw [broadcastTo_a1_ab_apply, row_bcast_apply]
  show IntOp.cmpi .eq (l (ix2 b 0)) (IntOp.addi v38 (iota .tc S1x1024 32 [1] iota_S1x1024_d1_w32 (ix2 (0 : Fin 1) q))) = _
  rw [iota_single_apply]
  rfl

theorem pay6_apply (l : IVec S512x1 32) (v18 v36 : FVec Ideal S512x1024 .f32) (v38 : BitVec 32) (b : Fin 512) (q : Fin 1024) :
    k0_pay6 (F := Ideal) l v18 v36 v38 (ix2 b q)
      = FloatOps.mulf (F := Ideal) (φ := .f32) (Scalar.select (IntOp.cmpi .eq (l (ix2 b 0)) (v38 + BitVec.ofNat 32 q.val)) (v36 (ix2 b q)) (v18 (ix2 b q))) (lit 0x41F00000#32) := by
  unfold k0_pay6
  exact congrArg (fun h => FloatOps.mulf (F := Ideal) (φ := .f32) (Scalar.select h (v36 (ix2 b q)) (v18 (ix2 b q))) (lit 0x41F00000#32)) (hot_apply l v38 b q)

theorem tileA_apply (a0 : BitVec 32) (l : Vec Ideal S512x1 .i32) (xb : Vec Ideal S512x512 .bf16) (wa : Vec Ideal S1024x512 .f32) (b : Fin 512) (q : Fin 1024) :
    k0_pay6 (F := Ideal) (k0_pay3 (F := Ideal) l) (k0_pay4 (F := Ideal) xb wa) (k0_pay5 (F := Ideal) xb wa) (Scalar.addi (Scalar.muli a0 2048#32) 0#32) (ix2 b q)
      = Cert.Arc.margin (∑ d : Fin 512, xb (ix2 b d) * Cert.Arc.rowRsqrt Cert.Arc.epsSq (fun k => wa (ix2 q k)) d)
          (IntOp.cmpi .eq (l (ix2 b 0)) (Scalar.addi (Scalar.muli a0 2048#32) 0#32 + BitVec.ofNat 32 q.val)) := by
  have e3 : k0_pay3 (F := Ideal) l = l := shapeCast_self _ _
  rw [e3, pay6_apply, pay5_apply, pay4_apply, margin_eq]
  rfl

theorem pay7_eq (xb : Vec Ideal S512x512 .bf16) (w : Vec Ideal S1024x512 .f32) :
    k0_pay7 (F := Ideal) (k0_pay2 (F := Ideal) xb) w = k0_pay4 (F := Ideal) xb w := rfl

theorem pay8910_apply (xb : Vec Ideal S512x512 .bf16) (w : Vec Ideal S1024x512 .f32) (i : S512x1024.Idx) :
    Scalar.select (k0_pay9 (F := Ideal) (k0_pay2 (F := Ideal) xb) w i) (k0_pay8 (F := Ideal) (k0_pay2 (F := Ideal) xb) w i)
        (k0_pay10 (F := Ideal) (k0_pay2 (F := Ideal) xb) w i)
      = phiSel (k0_pay4 (F := Ideal) xb w i) := rfl

theorem pay1_apply (a0 : BitVec 32) (l : IVec S512x1 32) (v63 v76 : FVec Ideal S512x1024 .f32) (v78 : IVec S512x1024 1)
    (v80 : FVec Ideal S512x1024 .f32) (b : Fin 512) (q : Fin 1024) :
    k0_pay1 (F := Ideal) a0 l v63 v76 v78 v80 (ix2 b q)
      = FloatOps.mulf (F := Ideal) (φ := .f32)
          (Scalar.select (IntOp.cmpi .eq (l (ix2 b 0)) (Scalar.addi (Scalar.muli a0 2048#32) 1024#32 + BitVec.ofNat 32 q.val))
            (Scalar.select (v78 (ix2 b q)) (v76 (ix2 b q)) (v80 (ix2 b q))) (v63 (ix2 b q))) (lit 0x41F00000#32) := by
  unfold k0_pay1
  exact congrArg (fun h => FloatOps.mulf (F := Ideal) (φ := .f32)
    (Scalar.select h (Scalar.select (v78 (ix2 b q)) (v76 (ix2 b q)) (v80 (ix2 b q))) (v63 (ix2 b q))) (lit 0x41F00000#32))
    (hot_apply l (Scalar.addi (Scalar.muli a0 2048#32) 1024#32) b q)

theorem tileB_apply (a0 : BitVec 32) (l : Vec Ideal S512x1 .i32) (xb : Vec Ideal S512x512 .bf16) (wb : Vec Ideal S1024x512 .f32) (b : Fin 512) (q : Fin 1024) :
    k0_pay1 (F := Ideal) a0 (k0_pay3 (F := Ideal) l) (k0_pay7 (F := Ideal) (k0_pay2 (F := Ideal) xb) wb) (k0_pay8 (F := Ideal) (k0_pay2 (F := Ideal) xb) wb)
        (k0_pay9 (F := Ideal) (k0_pay2 (F := Ideal) xb) wb) (k0_pay10 (F := Ideal) (k0_pay2 (F := Ideal) xb) wb) (ix2 b q)
      = Cert.Arc.margin (∑ d : Fin 512, xb (ix2 b d) * Cert.Arc.rowRsqrt Cert.Arc.epsSq (fun k => wb (ix2 q k)) d)
          (IntOp.cmpi .eq (l (ix2 b 0)) (Scalar.addi (Scalar.muli a0 2048#32) 1024#32 + BitVec.ofNat 32 q.val)) := by
  have e3 : k0_pay3 (F := Ideal) l = l := shapeCast_self _ _
  rw [e3, pay1_apply, pay8910_apply, pay7_eq, pay4_apply, margin_eq]
  rfl

/-- The compared word of the first half at grid coordinate `t`: column `2048 t + q`. -/
theorem col_wordA (t q : ℕ) :
    Scalar.addi (Scalar.muli (BitVec.ofNat 32 t) 2048#32) 0#32 + BitVec.ofNat 32 q = BitVec.ofNat 32 (2048 * t + q) := by
  show BitVec.ofNat 32 t * 2048#32 + 0#32 + BitVec.ofNat 32 q = _
  apply BitVec.eq_of_toNat_eq
  simp only [BitVec.toNat_add, BitVec.toNat_mul, BitVec.toNat_ofNat]
  omega

/-- The compared word of the second half at grid coordinate `t`: column `2048 t + 1024 + q`. -/
theorem col_wordB (t q : ℕ) :
    Scalar.addi (Scalar.muli (BitVec.ofNat 32 t) 2048#32) 1024#32 + BitVec.ofNat 32 q = BitVec.ofNat 32 (2048 * t + 1024 + q) := by
  show BitVec.ofNat 32 t * 2048#32 + 1024#32 + BitVec.ofNat 32 q = _
  apply BitVec.eq_of_toNat_eq
  simp only [BitVec.toNat_add, BitVec.toNat_mul, BitVec.toNat_ofNat]
  omega

end Cert.Arc.Pay
end
-- ==== Proof.KTileApply.lean ====
/-
  An entry of the result tile on the extended reals: column `col` of the tile at grid point t is the margin map of the
  cosine of input row b with row `col` of the weight block, normalised by the reciprocal square root, the label
  compared with the column's number 2048·t + col.
-/
import proofs.«175011_j1133871366196_2_alg».proof.Proof.KTileRead
import proofs.«175011_j1133871366196_2_alg».proof.Proof.PayloadRead

set_option maxRecDepth 16384

noncomputable section

namespace Cert.KernelIdeal.Body

open Cert.KernelIdeal Cert.KernelIdeal.Gen Cert.Arc
open Idealize.ShloMosaic Idealize.ShloMosaic.ValueIdx Idealize.ShloMosaic.Pipeline

/-- The one grid coordinate of point `t` is `t`. -/
theorem coord_t : ∀ t : Fin cfg0.N, (grid0.coords t 0).val = t.val :=
  (by decide +kernel : ∀ t : Fin grid0.N, (grid0.coords t 0).val = t.val)

theorem tile_apply (t : Fin cfg0.N) (x0 : Vec Ideal S512x1 .i32) (x1 : Vec Ideal S512x512 .bf16) (x2 : Vec Ideal S2048x512 .f32)
    (b : Fin 512) (col : Fin 2048) :
    tile (F := Ideal) (grid0.coords t) x0 x1 x2 (ix2 b col)
      = margin (∑ d : Fin 512, x1 (ix2 b d) * rowRsqrt epsSq (fun k => x2 (ix2 col k)) d)
          (IntOp.cmpi .eq (x0 (ix2 b 0)) (BitVec.ofNat 32 (2048 * t.val + col.val))) := by
  by_cases h : col.val < 1024
  · obtain ⟨q, hq⟩ : ∃ q : Fin 1024, q.val = col.val := ⟨⟨col.val, h⟩, rfl⟩
    have hc : col = (⟨q.val, by omega⟩ : Fin 2048) := Fin.ext hq.symm
    rw [hc]
    have hw : (fun k => View.ld x2 rWa (ix2 q k)) = fun k => x2 (ix2 (⟨q.val, by omega⟩ : Fin 2048) k) :=
      funext fun k => ld_rWa x2 q k
    rw [tile_left]; unfold tileA
    rw [ld_rL, ld_rX, Pay.tileA_apply, hw, coord_t, Pay.col_wordA]
  · obtain ⟨q, hq⟩ : ∃ q : Fin 1024, 1024 + q.val = col.val :=
      ⟨⟨col.val - 1024, by omega⟩, by show 1024 + (col.val - 1024) = col.val; omega⟩
    have hc : col = (⟨1024 + q.val, by omega⟩ : Fin 2048) := Fin.ext hq.symm
    rw [hc]
    have hw : (fun k => View.ld x2 rWb (ix2 q k)) = fun k => x2 (ix2 (⟨1024 + q.val, by omega⟩ : Fin 2048) k) :=
      funext fun k => ld_rWb x2 q k
    rw [tile_right]; unfold tileB
    rw [ld_rL, ld_rX, Pay.tileB_apply, hw, coord_t, Pay.col_wordB, Nat.add_assoc]

end Cert.KernelIdeal.Body

end
-- ==== Proof.KBlocks.lean ====
/-
  The one pipeline's four windows on its grid of 49 points, read index by index.

  Window 0 (the label column, 512 × 1) and window 1 (the normalised input, 512 × 512) are whole arrays at every
  point. Window 2 is the weight matrix (100000 × 512) in blocks of 2048 rows, point t taking rows
  2048·t … 2048·t + 2047; window 3 is the result (512 × 100000) in blocks of 2048 columns, point t taking columns
  2048·t … 2048·t + 2047. Since 100000 = 48·2048 + 1696, the last point's block overhangs the array and is cut to its
  first 1696 rows (columns): at every point the part moved has min(2048, 100000 − 2048·t) rows (columns), that is,
  entry j of the block is moved exactly when 2048·t + j < 100000. The 49 blocks of the result cover all its columns.
-/
import proofs.«175011_j1133871366196_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.ShloMosaic.TcCoe

variable {F : FTy → Type} [FloatOps F] [Named F]
variable (m : (ℓ : Loc nD τ sig) → Buf (Elt F) ℓ)

/-! ## The index maps and the cut sizes, decided over the 49 points -/

/-- The result's block index at point t is (0, t). -/
theorem idx3 : ∀ t : Fin cfg0.N, win0_3.index t 0 = 0 ∧ win0_3.index t 1 = t.val :=
  (by decide +kernel : ∀ t : Fin grid0.N, win0_3.index t 0 = 0 ∧ win0_3.index t 1 = t.val)

/-- The weight's block index at point t is (t, 0). -/
theorem idx2 : ∀ t : Fin cfg0.N, win0_2.index t 0 = t.val ∧ win0_2.index t 1 = 0 :=
  (by decide +kernel : ∀ t : Fin grid0.N, win0_2.index t 0 = t.val ∧ win0_2.index t 1 = 0)

/-- The label column's and the normalised input's block index is (0, 0) at every point. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

/-- The part of the result's block moved at point t: all 512 rows, min(2048, 100000 − 2048·t) columns. -/
theorem xsize3 : ∀ t : Fin cfg0.N, win0_3.xsize (grid0.coords t) 0 = 512
    ∧ win0_3.xsize (grid0.coords t) 1 = min 2048 (100000 - 2048 * t.val) :=
  (by decide +kernel : ∀ t : Fin grid0.N, win0_3.xsize (grid0.coords t) 0 = 512
    ∧ win0_3.xsize (grid0.coords t) 1 = min 2048 (100000 - 2048 * t.val))

/-- The part of the weight's block moved at point t: min(2048, 100000 − 2048·t) rows, all 512 columns. -/
theorem xsize2 : ∀ t : Fin cfg0.N, win0_2.xsize (grid0.coords t) 0 = min 2048 (100000 - 2048 * t.val)
    ∧ win0_2.xsize (grid0.coords t) 1 = 512 :=
  (by decide +kernel : ∀ t : Fin grid0.N, win0_2.xsize (grid0.coords t) 0 = min 2048 (100000 - 2048 * t.val)
    ∧ win0_2.xsize (grid0.coords t) 1 = 512)

/-- The whole-array windows move all of their blocks. -/
theorem xsize0 : ∀ t : Fin cfg0.N, win0_0.xsize (grid0.coords t) 0 = 512 ∧ win0_0.xsize (grid0.coords t) 1 = 1 :=
  (by decide +kernel : ∀ t : Fin grid0.N, win0_0.xsize (grid0.coords t) 0 = 512 ∧ win0_0.xsize (grid0.coords t) 1 = 1)
theorem xsize1 : ∀ t : Fin cfg0.N, win0_1.xsize (grid0.coords t) 0 = 512 ∧ win0_1.xsize (grid0.coords t) 1 = 512 :=
  (by decide +kernel : ∀ t : Fin grid0.N, win0_1.xsize (grid0.coords t) 0 = 512 ∧ win0_1.xsize (grid0.coords t) 1 = 512)

/-! ## Which entries of a block the transfers move -/

/-- Entry j of the result's block at point t is moved iff its column 2048·t + j₁ lies inside the array. -/
theorem moved3_iff (t : Fin cfg0.N) (j : S512x2048.Idx) :
    (cfg0.win 3).moved (cfg0.grid.coords t) j = true ↔ 2048 * t.val + (j 1).val < 100000 := by
  have ht : t.val < 49 := t.isLt
  have hj0 : (j 0).val < 512 := (j 0).isLt
  have hj1 : (j 1).val < 2048 := (j 1).isLt
  obtain ⟨e0, e1⟩ := xsize3 t
  rw [Pipeline.Window.moved_iff]
  constructor
  · intro h
    have h1 : (j 1).val < win0_3.xsize (grid0.coords t) 1 := h 1
    rw [e1] at h1; omega
  · intro h a
    match a with
    | ⟨0, _⟩ => show (j 0).val < win0_3.xsize (grid0.coords t) 0; rw [e0]; exact hj0
    | ⟨1, _⟩ => show (j 1).val < win0_3.xsize (grid0.coords t) 1; rw [e1]; omega

/-- Entry j of the weight's block at point t is moved iff its row 2048·t + j₀ lies inside the array. -/
theorem moved2_iff (t : Fin cfg0.N) (j : S2048x512.Idx) :
    (cfg0.win 2).moved (cfg0.grid.coords t) j = true ↔ 2048 * t.val + (j 0).val < 100000 := by
  have ht : t.val < 49 := t.isLt
  have hj0 : (j 0).val < 2048 := (j 0).isLt
  have hj1 : (j 1).val < 512 := (j 1).isLt
  obtain ⟨e0, e1⟩ := xsize2 t
  rw [Pipeline.Window.moved_iff]
  constructor
  · intro h
    have h0 : (j 0).val < win0_2.xsize (grid0.coords t) 0 := h 0
    rw [e0] at h0; omega
  · intro h a
    match a with
    | ⟨0, _⟩ => show (j 0).val < win0_2.xsize (grid0.coords t) 0; rw [e0]; omega
    | ⟨1, _⟩ => show (j 1).val < win0_2.xsize (grid0.coords t) 1; rw [e1]; exact hj1

/-! ## A block of the result, read at an index -/

/-- The bounds of an index of the part moved of the result's block at point t. -/
theorem y3_lt (t : Fin cfg0.N) (y : ((cfg0.win 3).xblock (cfg0.grid.coords t)).Idx) :
    (y 0).val < 512 ∧ 2048 * t.val + (y 1).val < 100000 := by
  have ht : t.val < 49 := t.isLt
  have h0 : (y 0).val < win0_3.xsize (grid0.coords t) 0 := (y 0).isLt
  have h1 : (y 1).val < win0_3.xsize (grid0.coords t) 1 := (y 1).isLt
  rw [(xsize3 t).1] at h0; rw [(xsize3 t).2] at h1
  exact ⟨h0, by omega⟩

/-- Entry y of the result's block at point t is the array's entry (y₀, 2048·t + y₁). -/
theorem blk3_read (G : S512x100000.Idx → Elt F .f32) (t : Fin cfg0.N) (y : ((cfg0.win 3).xblock (cfg0.grid.coords t)).Idx) :
    ((cfg0.win 3).blk t).view.read (Elt F) G y
      = G (ix2 (⟨(y 0).val, (y3_lt t y).1⟩ : Fin 512) (⟨2048 * t.val + (y 1).val, (y3_lt t y).2⟩ : Fin 100000)) := by
  show G (((cfg0.win 3).blk t).view.emb y) = _
  refine congrArg G (funext fun a => Fin.ext ?_)
  obtain ⟨e0, e1⟩ := idx3 t
  match a with
  | ⟨0, _⟩ => show win0_3.index t 0 * 512 + 1 * (y 0).val = (y 0).val; rw [e0]; omega
  | ⟨1, _⟩ => show win0_3.index t 1 * 2048 + 1 * (y 1).val = 2048 * t.val + (y 1).val; rw [e1]; omega

/-! ## The input windows' blocks -/

/-- The bounds of an index of the part moved of the weight's block at point t. -/
theorem y2_lt (t : Fin cfg0.N) (y : ((cfg0.win 2).xblock (cfg0.grid.coords t)).Idx) :
    2048 * t.val + (y 0).val < 100000 ∧ (y 1).val < 512 := by
  have ht : t.val < 49 := t.isLt
  have h0 : (y 0).val < win0_2.xsize (grid0.coords t) 0 := (y 0).isLt
  have h1 : (y 1).val < win0_2.xsize (grid0.coords t) 1 := (y 1).isLt
  rw [(xsize2 t).1] at h0; rw [(xsize2 t).2] at h1
  exact ⟨by omega, h1⟩

/-- Entry y of the weight's block at point t is the weight's entry (2048·t + y₀, y₁). -/
theorem iblk2_apply (c : Dev nD) (t : Fin cfg0.N) (y : ((cfg0.win 2).xblock (cfg0.grid.coords t)).Idx) :
    iblk m c 2 t y
      = V m c main_arg2 (ix2 (⟨2048 * t.val + (y 0).val, (y2_lt t y).1⟩ : Fin 100000) (⟨(y 1).val, (y2_lt t y).2⟩ : Fin 512)) := by
  show V m c main_arg2 (((cfg0.win 2).blk t).view.emb y) = _
  refine congrArg (V m c main_arg2) (funext fun a => Fin.ext ?_)
  obtain ⟨e0, e1⟩ := idx2 t
  match a with
  | ⟨0, _⟩ => show win0_2.index t 0 * 2048 + 1 * (y 0).val = 2048 * t.val + (y 0).val; rw [e0]; omega
  | ⟨1, _⟩ => show win0_2.index t 1 * 512 + 1 * (y 1).val = (y 1).val; rw [e1]; omega

/-- The label column's block is the whole column at every point. -/
theorem iblk0_eq (c : Dev nD) (t : Fin cfg0.N) : iblk m c 0 t = V m c main_v0 := by
  funext y
  show V m c main_v0 (((cfg0.win 0).blk t).view.emb y) = V m c main_v0 y
  refine congrArg (V m c main_v0) (funext fun a => Fin.ext ?_)
  obtain ⟨e0, e1⟩ := idx0 t
  match a with
  | ⟨0, _⟩ => show win0_0.index t 0 * 512 + 1 * (y 0).val = (y 0).val; rw [e0]; omega
  | ⟨1, _⟩ => show win0_0.index t 1 * 1 + 1 * (y 1).val = (y 1).val; rw [e1]; omega

/-- The normalised input's block is the whole array at every point. -/
theorem iblk1_eq (c : Dev nD) (t : Fin cfg0.N) : iblk m c 1 t = V m c main_v9 := by
  funext y
  show V m c main_v9 (((cfg0.win 1).blk t).view.emb y) = V m c main_v9 y
  refine congrArg (V m c main_v9) (funext fun a => Fin.ext ?_)
  obtain ⟨e0, e1⟩ := idx1 t
  match a with
  | ⟨0, _⟩ => show win0_1.index t 0 * 512 + 1 * (y 0).val = (y 0).val; rw [e0]; omega
  | ⟨1, _⟩ => show win0_1.index t 1 * 512 + 1 * (y 1).val = (y 1).val; rw [e1]; omega

/-! ## The result's blocks cover the array -/

/-- An index of the result is in point t's block iff its column is among the block's columns. -/
theorem mem_blk3 (t : Fin cfg0.N) (i : S512x100000.Idx) :
    i ∈ ((cfg0.win 3).blk t).view.set ↔ 2048 * t.val ≤ (i 1).val ∧ (i 1).val < 2048 * t.val + 2048 := by
  have ht : t.val < 49 := t.isLt
  have hi0 : (i 0).val < 512 := (i 0).isLt
  have hi1 : (i 1).val < 100000 := (i 1).isLt
  obtain ⟨e0, e1⟩ := idx3 t
  obtain ⟨x0, x1⟩ := xsize3 t
  show i ∈ ((View.whole main_v10).slice (win0_3.rect t)).set ↔ _
  rw [View.set_slice_whole, Rect.mem_set_unit]
  constructor
  · intro h
    have h1 : win0_3.index t 1 * 2048 ≤ (i 1).val ∧ (i 1).val < win0_3.index t 1 * 2048 + win0_3.xsize (grid0.coords t) 1 := h 1
    rw [e1, x1] at h1; omega
  · intro h a
    match a with
    | ⟨0, _⟩ =>
      show win0_3.index t 0 * 512 ≤ (i 0).val ∧ (i 0).val < win0_3.index t 0 * 512 + win0_3.xsize (grid0.coords t) 0
      rw [e0, x0]; omega
    | ⟨1, _⟩ =>
      show win0_3.index t 1 * 2048 ≤ (i 1).val ∧ (i 1).val < win0_3.index t 1 * 2048 + win0_3.xsize (grid0.coords t) 1
      rw [e1, x1]; omega

/-- Every index of the result lies in the block of the point its column divided by 2048 names, which is written back. -/
theorem cover3 : ∀ i : S512x100000.Idx, ∃ t : Fin cfg0.N, (cfg0.win 3).flush t = true ∧ i ∈ ((cfg0.win 3).blk t).view.set := by
  intro i
  have hi1 : (i 1).val < 100000 := (i 1).isLt
  have hq : (i 1).val / 2048 < cfg0.N := lt_of_lt_of_eq (by omega) N_0.symm
  refine ⟨⟨(i 1).val / 2048, hq⟩, flush0_3 _, ?_⟩
  rw [mem_blk3]
  show 2048 * ((i 1).val / 2048) ≤ (i 1).val ∧ (i 1).val < 2048 * ((i 1).val / 2048) + 2048
  omega

end Cert.KernelIdeal.Blocks

end
-- ==== Proof.KHostPrefix.lean ====
/-
  What the kernel program's region finds in the arrays its host prefix wrote.

  Before its one region the kernel program reshapes the labels to a column and row-normalises the input: each row
  divided by max(sqrt(0 + ∑ row²), ε), then narrowed to the 16-bit format. On the extended reals the narrowing is the
  identity and the operations are, one for one, those with which the dividing program normalises its input, so the
  array the region reads is that program's normalised input; the reshaped labels at (b, 0) are the labels at b.
-/
import proofs.«175011_j1133871366196_2_alg».proof.Proof.Gen.KernelIdeal.Frame
import proofs.«175011_j1133871366196_2_alg».proof.Proof.Gen.ReferenceIdeal.Read
import Idealize.ShloMosaic.Lib.StableHlo.Run
import Idealize.ShloMosaic.Lib.ValueIdx
import Idealize.ShloMosaic.Lib.Pipeline.Value

noncomputable section

namespace Cert.Arc.Host

open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ)
  (c : Dev Cert.KernelIdeal.nD)

/-- The array the region reads as its normalised input is the dividing program's normalised input: the same
    operations, and the narrowing to 16 bits is the identity on the extended reals. -/
theorem V_main_v9 :
    (Cert.KernelIdeal.Gen.V m c Cert.KernelIdeal.main_v9 : Cert.KernelIdeal.S512x512.Idx → EReal)
      = Cert.ReferenceIdeal.Read.val_main_v7 (F := Ideal) (m ((c.tc : Thread _ _).loc Cert.KernelIdeal.main_arg0)) := by
  dsimp only [Cert.KernelIdeal.Gen.V, Cert.KernelIdeal.Gen.hostOps0]
  after_results
  rfl

/-- The labels reshaped to a column: entry (b, 0) is label b (both have row-major position b). -/
theorem V_main_v0 (b : Fin 512) :
    (Cert.KernelIdeal.Gen.V m c Cert.KernelIdeal.main_v0 : Cert.KernelIdeal.S512x1.Idx → BitVec 32) (ix2 b 0)
      = (m ((c.tc : Thread _ _).loc Cert.KernelIdeal.main_arg1)) (ix1 b) := by
  dsimp only [Cert.KernelIdeal.Gen.V, Cert.KernelIdeal.Gen.hostOps0]
  after_results
  show shapeCast Cert.KernelIdeal.S512x1 (m ((c.tc : Thread _ _).loc Cert.KernelIdeal.main_arg1))
      Cert.KernelIdeal.Gen.shapeCasts_S512_S512x1 (ix2 b 0) = _
  refine shapeCast_apply _ _ _ _ ?_
  show ((⟨1, ![512]⟩ : Shape).rowMajor (ix1 b)).val = ((⟨2, ![512, 1]⟩ : Shape).rowMajor (ix2 b 0)).val
  rw [Shape.rowMajor_val_one, Shape.rowMajor_val_two]
  show b.val = b.val * 1 + 0
  omega

end Cert.Arc.Host

end
-- ==== Proof.NormLaw.lean ====
/-
  The two arrangements of the row normalisation agree on rows of real numbers.

  For a row r of reals let ss = ∑ r(k)² ≥ 0 and ε = 2305843 / 2^61 > 0 (the value of the f32 word 0x2B8CBCCC).
  Since the square root is monotone, sqrt(max(ss, ε²)) = max(sqrt ss, sqrt(ε²)) = max(sqrt ss, ε), which is positive;
  so rsqrt(max(ss, ε²)) = 1 / max(sqrt ss, ε) and r(d) · rsqrt(max(ss, ε²)) = r(d) / max(sqrt ss, ε).
-/
import proofs.«175011_j1133871366196_2_alg».proof.Proof.Spec

noncomputable section

namespace Cert.Arc.Law

open Idealize.ShloMosaic

/-- The f32 word 0x2B8CBCCC: exponent field 87, fraction field 834764, so (2^23 + 834764) · 2^(87 - 150) = 2305843 / 2^61. -/
theorem lit_eps : Cert.Arc.lit 0x2B8CBCCC#32 = ((2305843 / 2305843009213693952 : ℝ) : EReal) := by
  simp [Ideal.ofBits, Ideal.ieee, -EReal.coe_mul]; norm_num

/-- 5316911940649 = 2305843² and 5316911983139663491615228241121378304 = (2^61)². -/
theorem epsSq_eq : Cert.Arc.epsSq = (((2305843 / 2305843009213693952 : ℝ) ^ 2 : ℝ) : EReal) :=
  congrArg (fun t : ℝ => (t : EReal)) (by norm_num)

/-- A finite sum of reals, read in the extended reals, is the sum of the terms read there. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The sum of squares of a row of reals is the real sum of squares. -/
theorem sumSq_coe (x : Fin 512 → ℝ) :
    Cert.Arc.sumSq (fun k => (x k : EReal)) = ((∑ k : Fin 512, x k * x k : ℝ) : EReal) := by
  unfold Cert.Arc.sumSq
  simp only [Ideal.mulf_def, ← EReal.coe_mul]
  exact coe_sum _ _

/-- The larger of two reals, read in the extended reals, is the larger of the two read there. -/
theorem coe_max (a b : ℝ) : ((max a b : ℝ) : EReal) = max (a : EReal) (b : EReal) :=
  EReal.coe_strictMono.monotone.map_max

/-- The scalar law: for reals a, ss ≥ 0 and e > 0, a · rsqrt(max(ss, e²)) = a / max(sqrt ss, e). -/
theorem mul_rsqrt_eq_div (a ss e : ℝ) (hss : 0 ≤ ss) (he : 0 < e) :
    (a : EReal) * Ideal.rsqrt (max (ss : EReal) ((e ^ 2 : ℝ) : EReal))
      = Ideal.div (a : EReal) (max (Ideal.sqrt (ss : EReal)) (e : EReal)) := by
  have hm : (0 : ℝ) < max ss (e ^ 2) := lt_max_of_lt_right (by positivity)
  have hd : max (Real.sqrt ss) e ≠ 0 := (lt_max_of_lt_right he).ne'
  have hs : Real.sqrt (max ss (e ^ 2)) = max (Real.sqrt ss) e := by
    rw [Real.sqrt_monotone.map_max, Real.sqrt_sq he.le]
  rw [← coe_max, Ideal.rsqrt_coe, if_neg (not_lt.mpr hm.le), if_neg hm.ne',
    Ideal.sqrt_coe, if_neg (not_lt.mpr hss), ← coe_max, Ideal.div_coe hd, ← EReal.coe_mul, ← EReal.coe_mul,
    hs, one_div]

/-- On a row of reals, multiplying by rsqrt(max(ss, ε²)) is dividing by max(sqrt ss, ε). -/
theorem rowRsqrt_eq_rowDiv (r : Fin 512 → EReal) (hr : ∀ k, ∃ x : ℝ, r k = (x : EReal)) (d : Fin 512) :
    Cert.Arc.rowRsqrt Cert.Arc.epsSq r d = Cert.Arc.rowDiv r d := by
  choose x hx using hr
  obtain rfl : r = fun k => (x k : EReal) := funext hx
  have hss : (0 : ℝ) ≤ ∑ k : Fin 512, x k * x k := Finset.sum_nonneg (fun k _ => mul_self_nonneg _)
  unfold Cert.Arc.rowRsqrt Cert.Arc.rowDiv
  rw [sumSq_coe, lit_eps, epsSq_eq]
  exact mul_rsqrt_eq_div (x d) _ _ hss (by norm_num)

end Cert.Arc.Law

end
-- ==== Proof.FiniteWeights.lean ====
/-
  From the precondition "every entry of the first and third arguments has absolute value below +∞" to
  "every entry of the third argument (the weight matrix) is a real number".

  On the extended reals |x| is max x (-x); |x| < +∞ excludes x = +∞ (then |x| = +∞) and x = -∞ (then -x = +∞),
  and what remains of [-∞, +∞] is ℝ.
-/
import proofs.«175011_j1133871366196_2_alg».proof.Defs
import proofs.«175011_j1133871366196_2_alg».proof.Proof.Gen.Pre_finite_inputs
import Idealize.ShloMosaic.Lib.ReduceAll
import Idealize.ShloMosaic.Lib.ValueIdx

noncomputable section

namespace Cert.Arc.Fin

open Idealize.ShloMosaic Idealize.ShloMosaic.ValueIdx

/-- The shape of rank 0 has exactly one index. -/
instance : Subsingleton Cert.Pre_finite_inputs.S_.Idx := ⟨fun a b => funext fun d => d.elim0⟩

/-- The f32 word 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_inf] at h'
  induction x using EReal.rec with
  | bot => simp at h'
  | top => simp at h'
  | coe r => exact ⟨r, rfl⟩

/-- Under the precondition every entry of the third argument is a real number. -/
theorem weight_real [Cert.Pre_finite_inputs.Facts] (a0 : FVec Ideal Cert.Pre_finite_inputs.S512x512 .f32)
    (a1 : IVec Cert.Pre_finite_inputs.S512 32) (a2 : FVec Ideal Cert.Pre_finite_inputs.S100000x512 .f32)
    (h : Cert.Pre_finite_inputs.fn (F := Ideal) a0 a1 a2 = fun _ => 1#1) : ∀ i, ∃ x : ℝ, a2 i = (x : EReal) := by
  intro i
  have h0 := congrFun h ValueIdx.ix0
  dsimp only [Cert.Pre_finite_inputs.fn] at h0
  have h2 := (IntOp.andi_eq_one.1 h0).2
  have he := Host.reduce_andi_all _ _ _ _ ValueIdx.ix0 h2 i
  exact real_of_abs_lt (a2 i) he

/-- Under the precondition every entry of the first argument is a real number. -/
theorem input_real [Cert.Pre_finite_inputs.Facts] (a0 : FVec Ideal Cert.Pre_finite_inputs.S512x512 .f32)
    (a1 : IVec Cert.Pre_finite_inputs.S512 32) (a2 : FVec Ideal Cert.Pre_finite_inputs.S100000x512 .f32)
    (h : Cert.Pre_finite_inputs.fn (F := Ideal) a0 a1 a2 = fun _ => 1#1) : ∀ i, ∃ x : ℝ, a0 i = (x : EReal) := by
  intro i
  have h0 := congrFun h ValueIdx.ix0
  dsimp only [Cert.Pre_finite_inputs.fn] at h0
  have h1 := (IntOp.andi_eq_one.1 h0).1
  have he := Host.reduce_andi_all _ _ _ _ ValueIdx.ix0 h1 i
  exact real_of_abs_lt (a0 i) he

end Cert.Arc.Fin

end
-- ==== Proof.KValue.lean ====
/-
  The result array of the idealized kernel as one function of the arguments.

  Entry (b, j) of the result is written by grid point t = j / 2048 as column j − 2048·t of its tile: the margin map of
  the cosine of input row b with weight row j (normalised by the reciprocal square root), the label of row b compared
  with j. The 49 blocks of 2048 columns cover the 100000 columns, the last one cut at the array's end; the columns of
  the last tile past the cut are computed from buffer rows past the weight array's end and are never written back, so
  what those rows hold does not matter. On rows of real numbers the two normalisations agree, which gives the
  reference's arrangement.
-/
import proofs.«175011_j1133871366196_2_alg».proof.Proof.KTileApply
import proofs.«175011_j1133871366196_2_alg».proof.Proof.KBlocks
import proofs.«175011_j1133871366196_2_alg».proof.Proof.KHostPrefix
import proofs.«175011_j1133871366196_2_alg».proof.Proof.NormLaw
import proofs.«175011_j1133871366196_2_alg».proof.Proof.FiniteWeights
import Idealize.ShloMosaic.Lib.Pipeline.Value

set_option maxRecDepth 16384

noncomputable section

namespace Cert.KernelIdeal.Body

open Cert.KernelIdeal Cert.KernelIdeal.Gen Cert.KernelIdeal.Blocks Cert.Arc
open Idealize.ShloMosaic Idealize.ShloMosaic.ValueIdx Idealize.ShloMosaic.TcCoe Idealize.ShloMosaic.Pipeline Idealize.SL.Sem

variable (m : (ℓ : Loc nD τ sig) → Buf (Elt Ideal) ℓ) (ρ : Dev nD → PrngReg)

/-! ## A written-back entry of a tile, in coordinates -/

/-- A column of the written-back part of a tile is one of the tile's 2048. -/
theorem y3_col (t : Fin cfg0.N) (y : ((cfg0.win 3).xblock (cfg0.grid.coords t)).Idx) : (y 1).val < 2048 := by
  have h : (y 1).val < win0_3.xsize (grid0.coords t) 1 := (y 1).isLt
  rw [(xsize3 t).2] at h; omega

/-- The written-back part's index (row, column) is the tile's index (row, column). -/
theorem xinj3 (t : Fin cfg0.N) (y : ((cfg0.win 3).xblock (cfg0.grid.coords t)).Idx) :
    (cfg0.win 3).xinj (cfg0.grid.coords t) y
      = (ix2 (⟨(y 0).val, (y3_lt t y).1⟩ : Fin 512) (⟨(y 1).val, y3_col t y⟩ : Fin 2048) : S512x2048.Idx) :=
  funext fun a => Fin.ext (by match a with | ⟨0, _⟩ => rfl | ⟨1, _⟩ => rfl)

/-- A weight row inside the array is the same whatever fills the block's buffer past the array's end. -/
theorem fill2_moved (t : Fin cfg0.N) (e e' : Vec Ideal S2048x512 .f32)
    (g : ((cfg0.win 2).xblock (cfg0.grid.coords t)).Idx → Elt Ideal .f32) (col : Fin 2048) (k : Fin 512)
    (h : 2048 * t.val + col.val < 100000) :
    (cfg0.win 2).fill (cfg0.grid.coords t) e g (ix2 col k) = (cfg0.win 2).fill (cfg0.grid.coords t) e' g (ix2 col k) := by
  have hm : (cfg0.win 2).moved (cfg0.grid.coords t) (ix2 col k) = true := (moved2_iff t (ix2 col k)).mpr h
  unfold Window.fill; rw [dif_pos hm, dif_pos hm]

/-- The part of a tile that is written back does not depend on the buffer rows past the weight array's end. -/
theorem tileCutIndep : TileCutIndep (F := Ideal) := by
  intro t x0 x1 g d d'
  funext y
  show tile (grid0.coords t) x0 x1 ((cfg0.win 2).fill (cfg0.grid.coords t) d g) ((cfg0.win 3).xinj (cfg0.grid.coords t) y)
     = tile (grid0.coords t) x0 x1 ((cfg0.win 2).fill (cfg0.grid.coords t) d' g) ((cfg0.win 3).xinj (cfg0.grid.coords t) y)
  rw [xinj3, tile_apply, tile_apply]
  have hrow : (fun k => (cfg0.win 2).fill (cfg0.grid.coords t) d g (ix2 (⟨(y 1).val, y3_col t y⟩ : Fin 2048) k))
      = fun k => (cfg0.win 2).fill (cfg0.grid.coords t) d' g (ix2 (⟨(y 1).val, y3_col t y⟩ : Fin 2048) k) :=
    funext fun k => fill2_moved t d d' g _ k (y3_lt t y).2
  rw [hrow]

/-! ## The kernel's result, entry by entry -/

/-- The normalised input, the label column and the weights as the region finds them. -/
def xnK (c : Dev nD) : S512x512.Idx → EReal := V m c main_v9
def lblK (c : Dev nD) : S512x1.Idx → BitVec 32 := V m c main_v0
def wK (c : Dev nD) : S100000x512.Idx → EReal := V m c main_arg2

/-- The result in the kernel's arrangement: the cosines over rows normalised by the reciprocal square root. -/
def GK (c : Dev nD) : S512x100000.Idx → EReal := fun i =>
  margin (∑ d : Fin 512, xnK m c (ix2 (⟨(i 0).val, (i 0).isLt⟩ : Fin 512) d)
      * rowRsqrt epsSq (wrow (wK m c) ⟨(i 1).val, (i 1).isLt⟩) d)
    (IntOp.cmpi .eq (lblK m c (ix2 (⟨(i 0).val, (i 0).isLt⟩ : Fin 512) 0)) (BitVec.ofNat 32 (i 1).val))

theorem GK_ix2 (c : Dev nD) (p : Fin 512) (q : Fin 100000) :
    GK m c (ix2 p q) = margin (∑ d : Fin 512, xnK m c (ix2 p d) * rowRsqrt epsSq (wrow (wK m c) q) d)
      (IntOp.cmpi .eq (lblK m c (ix2 p 0)) (BitVec.ofNat 32 q.val)) := rfl

/-- Row `col` of the weight block at point t, inside the array, is row 2048·t + col of the weight array. -/
theorem wblk_row (c : Dev nD) (t : Fin cfg0.N) (col : Fin 2048) (h : 2048 * t.val + col.val < 100000) :
    (fun k => wblk m c t (ix2 col k)) = wrow (V m c main_arg2) ⟨2048 * t.val + col.val, h⟩ := funext fun k => by
  have hm : (cfg0.win 2).moved (cfg0.grid.coords t) (ix2 col k) = true := (moved2_iff t (ix2 col k)).mpr h
  unfold wblk Window.fill wrow
  rw [dif_pos hm, iblk2_apply]
  rfl

/-- What point t writes back is block t of `GK`. -/
theorem flushed_eq (c : Dev nD) (t : Fin cfg0.N) :
    (dats m 0 c).flushed 3 t = ((cfg0.win 3).blk t).view.read (Elt Ideal) (GK m c) := by
  funext y
  rw [blk3_read, GK_ix2]
  show (dats m 0 c).after 3 t ((cfg0.win 3).xinj (cfg0.grid.coords t) y) = _
  rw [after0_3, xinj3]
  show tile (grid0.coords t) (iblk m c 0 t) (iblk m c 1 t) (wblk m c t) _ = _
  rw [tile_apply, iblk0_eq, iblk1_eq, wblk_row m c t _ (y3_lt t y).2]
  rfl

/-- The result array after the run is `GK`. -/
theorem final_eq (c : Dev nD) : (dats m 0 c).arrAt 3 cfg0.N = GK m c :=
  (dats m 0 c).arrAt_eq_of_cover 3 (GK m c) (fun t _ => flushed_eq m c t) cover3

/-! ## The reference's arrangement -/

/-- Under the precondition the weight entries are real numbers, the two normalisations of a row agree, and the
    kernel's result is the specification at the reference's own normalised input. -/
theorem GK_eq_G [Cert.Pre_finite_inputs.Facts] (hpre : Cert.Pre_KernelIdeal m) (c : Dev nD) :
    GK m c = G (Cert.ReferenceIdeal.Read.val_main_v7 (F := Ideal) (m ((c.tc : Thread nD τ).loc main_arg0)))
      (m ((c.tc : Thread nD τ).loc main_arg1)) (m ((c.tc : Thread nD τ).loc main_arg2)) := by
  have hreal := Cert.Arc.Fin.weight_real _ _ _ (hpre c)
  funext i
  unfold GK G xnK lblK wK
  rw [Host.V_main_v9 m c, Host.V_main_v0 m c, V_main_arg2 m c]
  congr 1
  refine Finset.sum_congr rfl fun d _ => ?_
  exact congrArg (_ * ·) (Law.rowRsqrt_eq_rowDiv _ (fun k => hreal _) d)

end Cert.KernelIdeal.Body

end
-- ==== Proof.RefIsSpec.lean ====
/-
  The dividing program's result is the specification `G` applied to its own row-normalised input.

  Entry (b, j) of the result is read back operation by operation: the scale by 30, the choice at the label's column,
  the choice on the threshold, the sine from the clipped 1 − cos², the clip of the cosine to [-1, 1], the contraction
  over d of the normalised input against the transposed normalised weight, and, for the weight, the division of
  row j by max(sqrt(0 + ∑ w(j, ·)²), ε). The zero word denotes 0, so the sum of squares is `sumSq`; what remains is
  the margin map at that cosine and at the bit "the label of row b equals j".
-/
import proofs.«175011_j1133871366196_2_alg».proof.Proof.Spec
import proofs.«175011_j1133871366196_2_alg».proof.Proof.Gen.ReferenceIdeal.Read

noncomputable section

namespace Cert.Arc.Ref

open Idealize.ShloMosaic Idealize.ShloMosaic.ValueIdx Cert.ReferenceIdeal Cert.ReferenceIdeal.Read

/-- Entry (k, j) of the transposed normalised weight is entry k of row j divided by max(‖row j‖, ε). -/
theorem wn_apply (x2 : (⟨S100000x512, .f32⟩ : BufTy).Contents (Elt Ideal)) (i : S512x100000.Idx) (k : Fin 512) :
    val_main_v16 (F := Ideal) x2 (ridx_main_v17 i k) = rowDiv (wrow x2 ⟨(i 1).val, (i 1).isLt⟩) k := by
  rw [val_main_v16_apply, val_main_v15_apply, val_main_v14_apply, val_main_v13_apply, val_main_v11_apply,
    val_main_v12_apply, val_main_v10_apply, val_main_v9_apply, val_main_cst_1_apply, val_main_cst_2_apply]
  have e1 : idx_main_v16 (ridx_main_v17 i k) = ix2 (⟨(i 1).val, (i 1).isLt⟩ : Fin 100000) k :=
    funext fun a => Fin.ext (by match a with | ⟨0, _⟩ => rfl | ⟨1, _⟩ => rfl)
  have e2 : ∀ q : Fin 512, idx_main_v9 (idx_main_v10 (idx_main_v14 (idx_main_v16 (ridx_main_v17 i k)))) q
      = ix2 (⟨(i 1).val, (i 1).isLt⟩ : Fin 100000) q :=
    fun q => funext fun a => Fin.ext (by match a with | ⟨0, _⟩ => rfl | ⟨1, _⟩ => rfl)
  simp only [e1, e2, val_main_v8_apply, Ideal.ofBits_def, Ideal.ofBits_zero_f32, zero_add]
  rfl

/-- The raw cosine: the contraction is the sum over d of the normalised input against the divided weight row. -/
theorem cos_apply (x0 : (⟨S512x512, .f32⟩ : BufTy).Contents (Elt Ideal)) (x2 : (⟨S100000x512, .f32⟩ : BufTy).Contents (Elt Ideal))
    (i : S512x100000.Idx) :
    val_main_v17 (F := Ideal) x0 x2 i
      = ∑ d : Fin 512, val_main_v7 (F := Ideal) x0 (ix2 (⟨(i 0).val, (i 0).isLt⟩ : Fin 512) d)
          * rowDiv (wrow x2 ⟨(i 1).val, (i 1).isLt⟩) d := by
  rw [val_main_v17_apply]
  refine Finset.sum_congr rfl fun d _ => ?_
  rw [wn_apply]
  exact congrArg (fun t => val_main_v7 (F := Ideal) x0 t * rowDiv (wrow x2 ⟨(i 1).val, (i 1).isLt⟩) d)
    (funext fun a => Fin.ext (by match a with | ⟨0, _⟩ => rfl | ⟨1, _⟩ => rfl))

/-- The bit "the label of row b equals j". -/
theorem hot_apply (x1 : (⟨S512, .i32⟩ : BufTy).Contents (Elt Ideal)) (i : S512x100000.Idx) :
    val_main_v39 (F := Ideal) x1 i
      = IntOp.cmpi .eq (x1 (ix1 (⟨(i 0).val, (i 0).isLt⟩ : Fin 512))) (BitVec.ofNat 32 (i 1).val) := by
  rw [val_main_v39_apply, val_main_v37_apply, val_main_v34_apply, val_main_v38_apply, val_main_v36_apply,
    val_main_v35_apply]
  have e : idx_main_v34 (idx_main_v37 i) = ix1 (⟨(i 0).val, (i 0).isLt⟩ : Fin 512) :=
    funext fun a => Fin.ext (by match a with | ⟨0, _⟩ => rfl)
  rw [e]

/-- From the raw cosine and the label bit to the result: the margin map. -/
theorem tail_apply (x0 : (⟨S512x512, .f32⟩ : BufTy).Contents (Elt Ideal)) (x1 : (⟨S512, .i32⟩ : BufTy).Contents (Elt Ideal))
    (x2 : (⟨S100000x512, .f32⟩ : BufTy).Contents (Elt Ideal)) (i : S512x100000.Idx) :
    val_main_v42 (F := Ideal) x0 x1 x2 i
      = margin (val_main_v17 (F := Ideal) x0 x2 i) (val_main_v39 (F := Ideal) x1 i) := by
  generalize hc : val_main_v17 (F := Ideal) x0 x2 i = c0
  generalize hh : val_main_v39 (F := Ideal) x1 i = hot
  simp only [val_main_v42_apply, val_main_v41_apply, val_main_cst_12_apply, val_main_v40_apply, val_main_v33_apply,
    val_main_v32_apply, val_main_v31_apply, val_main_cst_11_apply, val_main_v30_apply, val_main_v29_apply,
    val_main_cst_10_apply, val_main_v28_apply, val_main_v27_apply, val_main_v26_apply, val_main_cst_9_apply,
    val_main_v25_apply, val_main_v24_apply, val_main_cst_8_apply, val_main_v23_apply, val_main_v22_apply,
    val_main_call1_v4_apply, val_main_call1_v3_apply, val_main_cst_7_apply, val_main_call1_v2_apply,
    val_main_call1_v1_apply, val_main_call1_v0_apply, val_main_cst_6_apply, val_main_v21_apply, val_main_v20_apply,
    val_main_cst_5_apply, val_main_v19_apply, val_main_v18_apply, val_main_call0_v4_apply, val_main_call0_v3_apply,
    val_main_cst_4_apply, val_main_call0_v2_apply, val_main_call0_v1_apply, val_main_call0_v0_apply,
    val_main_cst_3_apply, hc, hh]
  rfl

/-- The dividing program's result is `G` at its own normalised input, the labels and the weight. -/
theorem ref_eq_G (x0 : (⟨S512x512, .f32⟩ : BufTy).Contents (Elt Ideal)) (x1 : (⟨S512, .i32⟩ : BufTy).Contents (Elt Ideal))
    (x2 : (⟨S100000x512, .f32⟩ : BufTy).Contents (Elt Ideal)) :
    val_main_v42 (F := Ideal) x0 x1 x2 = G (val_main_v7 (F := Ideal) x0) x1 x2 := by
  funext i
  rw [tail_apply, cos_apply, hot_apply]
  rfl

end Cert.Arc.Ref

end
-- ==== Proof.lean ====
/-
  ArcFace margin logits: a kernel against its reference, over the extended reals.

  Both programs map an input x (512 × 512), labels (512) and weights w (100000 × 512) to the 512 × 100000 array whose
  entry (b, j) is the margin map applied to cos(b, j) = ∑ d, x̂(b, d) · ŵ(j, d) and to the bit "j is the label of b",
  x̂ and ŵ the rows of x and w divided by max(‖row‖, ε). The reference divides each weight row by max(sqrt ss, ε), ss the
  row's sum of squares; the kernel multiplies it by rsqrt(max(ss, ε²)), its constant ε² read as the square of the
  rational the reference's ε encodes. For a row of real numbers ss is a real ≥ 0, max(ss, ε²) = max(sqrt ss, ε)² and
  rsqrt(y²) = 1/y for y > 0, so the two rows agree; the weights are real by the precondition. The input's
  normalisation is the same host computation in both programs and is never opened.

  The kernel streams the weights in 49 blocks of 2048 rows and writes the result in 49 blocks of 2048 columns, the last
  of each overhanging its array: rows past the weight array's end hold arbitrary words, the columns computed from them
  lie past the result's last column and are not written back. The frames run the body at every grid point (it loads,
  computes and stores through fixed rectangles, so it cannot fault) and read the argument arrays back unchanged; the
  value claim names what each point writes back and pieces the result together from the 49 blocks.
-/
import proofs.«175011_j1133871366196_2_alg».proof.Defs
import proofs.«175011_j1133871366196_2_alg».proof.Proof.Gen.Kernel
import proofs.«175011_j1133871366196_2_alg».proof.Proof.Gen.KernelIdeal
import proofs.«175011_j1133871366196_2_alg».proof.Proof.Gen.ReferenceIdeal
import proofs.«175011_j1133871366196_2_alg».proof.Proof.Gen.Pre_finite_inputs
import proofs.«175011_j1133871366196_2_alg».proof.Proof.Gen.ReferenceIdeal.Run
import proofs.«175011_j1133871366196_2_alg».proof.Proof.Gen.ReferenceIdeal.Read
import proofs.«175011_j1133871366196_2_alg».proof.Proof.KBodyBits
import proofs.«175011_j1133871366196_2_alg».proof.Proof.KValue
import proofs.«175011_j1133871366196_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as launched. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two occurrences of the kernel's constant ε² denote, on the extended reals, the square of the rational the
    reference's ε encodes. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- From memories agreeing on the arguments both programs end with the specification's array: the kernel's 49
    written-back blocks piece it together in the reciprocal-square-root arrangement, which on real weight rows is
    the reference's dividing one; the reference's run is the specification read one operation at a time. -/
theorem algebraic : Cert.algebraic_KernelIdeal_ReferenceIdeal := by
  intro m ρ m' ρ' hpre hagree
  refine ⟨fun c => Cert.Arc.G
      (Cert.ReferenceIdeal.Read.val_main_v7 (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩)
      (Cert.KernelIdeal.Body.run_exact m ρ Cert.KernelIdeal.Body.tileCutIndep)
    · exact ((h c).1 3).trans ((Cert.KernelIdeal.Body.final_eq m c).trans (Cert.KernelIdeal.Body.GK_eq_G m hpre c))
    · exact ((h c).2 Cert.KernelIdeal.main_arg0 (Pipeline.mem_restRefs_of Cert.KernelIdeal.main_arg0 (by decide) (by decide))).trans
        (Cert.KernelIdeal.Gen.V_main_arg0 m c)
    · exact ((h c).2 Cert.KernelIdeal.main_arg1 (Pipeline.mem_restRefs_of Cert.KernelIdeal.main_arg1 (by decide) (by decide))).trans
        (Cert.KernelIdeal.Gen.V_main_arg1 m c)
    · exact ((h c).1 2).trans (((Cert.KernelIdeal.Body.dats m 0 c).arrAt_in 2 rfl _).trans
        ((Cert.KernelIdeal.Body.A_eq m c 2).trans (Cert.KernelIdeal.Gen.V_main_arg2 m c)))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v42_eq, Cert.Arc.Ref.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
